-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256 : Shape := ⟨3, ![4, 256, 256]⟩
abbrev S4x128x256 : Shape := ⟨3, ![4, 128, 256]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S_ : Shape := ⟨0, ![]⟩

class Facts : Prop where
  bcast_S_S4x256x256 : S_.BroadcastsInDim S4x256x256 (![] : Fin 0 → Fin S4x256x256.rank)
  reducesTo_S4x256x256_S_d0_1_2 : S4x256x256.ReducesTo [0, 1, 2] S_
  h_S_ : 0 < S_.numel
  bcast_S_S4x128x256 : S_.BroadcastsInDim S4x128x256 (![] : Fin 0 → Fin S4x128x256.rank)
  reducesTo_S4x128x256_S_d0_1_2 : S4x128x256.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S512x1024 .f32) (main_arg5 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x256x256 .f32) (main_arg1 : FVec F S4x128x256 .f32) (main_arg2 : FVec F S512x512 .f32) (main_arg3 : FVec F S512 .f32) (main_arg4 : FVec F S512x1024 .f32) (main_arg5 : FVec F S1024 .f32) : IVec S_ 1 :=
  let main_v0 : FVec F S4x256x256 .f32 := Host.absf main_arg0
  let main_cst : FVec F S_ .f32 := constant S_ .f32 0x7F800000#32
  let main_v1 : FVec F S4x256x256 .f32 := broadcastInDim S4x256x256 ![] bcast_S_S4x256x256 main_cst
  let main_v2 : IVec S4x256x256 1 := cmpf .olt main_v0 main_v1
  let main_c : IVec S_ 1 := constantI S_ 1 1#1
  let main_v3 : IVec S_ 1 := (fun x v => Host.reduce IntOp.andi x v reducesTo_S4x256x256_S_d0_1_2 h_S_) main_v2 main_c
  let main_v4 : FVec F S4x128x256 .f32 := Host.absf main_arg1
  let main_cst_0 : FVec F S_ .f32 := constant S_ .f32 0x7F800000#32
  let main_v5 : FVec F S4x128x256 .f32 := broadcastInDim S4x128x256 ![] bcast_S_S4x128x256 main_cst_0
  let main_v6 : IVec S4x128x256 1 := cmpf .olt main_v4 main_v5
  let main_c_1 : IVec S_ 1 := constantI S_ 1 1#1
  let main_v7 : IVec S_ 1 := (fun x v => Host.reduce IntOp.andi x v reducesTo_S4x128x256_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S4x256x256 : Shape := ⟨3, ![4, 256, 256]⟩
abbrev S4x128x256 : Shape := ⟨3, ![4, 128, 256]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S256x512 : Shape := ⟨2, ![256, 512]⟩
abbrev S1024x256 : Shape := ⟨2, ![1024, 256]⟩
abbrev S1024x512 : Shape := ⟨2, ![1024, 512]⟩
abbrev S4x256x512 : Shape := ⟨3, ![4, 256, 512]⟩
abbrev S512x256 : Shape := ⟨2, ![512, 256]⟩
abbrev S4x128x512 : Shape := ⟨3, ![4, 128, 512]⟩
abbrev S1x512 : Shape := ⟨2, ![1, 512]⟩
abbrev S1x1024 : Shape := ⟨2, ![1, 1024]⟩
abbrev S4x256x128x1024 : Shape := ⟨4, ![4, 256, 128, 1024]⟩
abbrev S1x16x512 : Shape := ⟨3, ![1, 16, 512]⟩
abbrev S1x128x512 : Shape := ⟨3, ![1, 128, 512]⟩
abbrev S1x16x128x1024 : Shape := ⟨4, ![1, 16, 128, 1024]⟩
abbrev S16x512 : Shape := ⟨2, ![16, 512]⟩
abbrev S128x512 : Shape := ⟨2, ![128, 512]⟩
abbrev S16x1x512 : Shape := ⟨3, ![16, 1, 512]⟩
abbrev S16x128x512 : Shape := ⟨3, ![16, 128, 512]⟩
abbrev S1x1x512 : Shape := ⟨3, ![1, 1, 512]⟩
abbrev S2048x512 : Shape := ⟨2, ![2048, 512]⟩
abbrev S2048x1024 : Shape := ⟨2, ![2048, 1024]⟩
abbrev S16x128x1024 : Shape := ⟨3, ![16, 128, 1024]⟩
abbrev S1x1x1024 : Shape := ⟨3, ![1, 1, 1024]⟩
abbrev S16x128 : Shape := ⟨2, ![16, 128]⟩
abbrev S16x128x1 : Shape := ⟨3, ![16, 128, 1]⟩

abbrev nBuf : Space → Nat
  | .hbm => 22
  | .vmem => 9
  | .smem => 0
  | _ => 0

abbrev bufTy : (tb : Table) → Fin (tcTables nBuf tb) → BufTy
  | .hbm, ⟨0, _⟩ => ⟨S4x256x256, .f32⟩
  | .hbm, ⟨1, _⟩ => ⟨S4x128x256, .f32⟩
  | .hbm, ⟨2, _⟩ => ⟨S512x512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S256x512, .f32⟩
  | .hbm, ⟨7, _⟩ => ⟨S256x512, .bf16⟩
  | .hbm, ⟨8, _⟩ => ⟨S256x512, .f32⟩
  | .hbm, ⟨9, _⟩ => ⟨S256x512, .bf16⟩
  | .hbm, ⟨10, _⟩ => ⟨S512x1024, .bf16⟩
  | .hbm, ⟨11, _⟩ => ⟨S1024x256, .f32⟩
  | .hbm, ⟨12, _⟩ => ⟨S1024x256, .bf16⟩
  | .hbm, ⟨13, _⟩ => ⟨S1024x512, .f32⟩
  | .hbm, ⟨14, _⟩ => ⟨S4x256x512, .f32⟩
  | .hbm, ⟨15, _⟩ => ⟨S512x256, .f32⟩
  | .hbm, ⟨16, _⟩ => ⟨S512x256, .bf16⟩
  | .hbm, ⟨17, _⟩ => ⟨S512x512, .f32⟩
  | .hbm, ⟨18, _⟩ => ⟨S4x128x512, .f32⟩
  | .hbm, ⟨19, _⟩ => ⟨S1x512, .f32⟩
  | .hbm, ⟨20, _⟩ => ⟨S1x1024, .f32⟩
  | .hbm, ⟨21, _⟩ => ⟨S4x256x128x1024, .f32⟩
  | .local _ .vmem, ⟨0, _⟩ => ⟨S1x16x512, .f32⟩
  | .local _ .vmem, ⟨1, _⟩ => ⟨S1x16x512, .f32⟩
  | .local _ .vmem, ⟨2, _⟩ => ⟨S1x128x512, .f32⟩
  | .local _ .vmem, ⟨3, _⟩ => ⟨S1x128x512, .f32⟩
  | .local _ .vmem, ⟨4, _⟩ => ⟨S1x512, .f32⟩
  | .local _ .vmem, ⟨5, _⟩ => ⟨S512x1024, .bf16⟩
  | .local _ .vmem, ⟨6, _⟩ => ⟨S1x1024, .f32⟩
  | .local _ .vmem, ⟨7, _⟩ => ⟨S1x16x128x1024, .f32⟩
  | .local _ .vmem, ⟨8, _⟩ => ⟨S1x16x128x1024, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S512x512_S256x512_0_0 : S512x512.Slices ![0, 0] S256x512
  bitsLt_bf16_f32 : FTy.bits .bf16 < FTy.bits .f32
  slices_S512x512_S256x512_256_0 : S512x512.Slices ![256, 0] S256x512
  shapeCasts_S4x256x256_S1024x256 : S4x256x256.ShapeCasts S1024x256
  shapeCasts_S1024x512_S4x256x512 : S1024x512.ShapeCasts S4x256x512
  shapeCasts_S4x128x256_S512x256 : S4x128x256.ShapeCasts S512x256
  shapeCasts_S512x512_S4x128x512 : S512x512.ShapeCasts S4x128x512
  shapeCasts_S512_S1x512 : S512.ShapeCasts S1x512
  shapeCasts_S1024_S1x1024 : S1024.ShapeCasts S1x1024
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S16x512_S16x1x512 : S16x512.ShapeCasts S16x1x512
  shapeCasts_S128x512_S1x128x512 : S128x512.ShapeCasts S1x128x512
  broadcasts_S16x1x512_S16x128x512 : S16x1x512.Broadcasts S16x128x512
  broadcasts_S1x128x512_S16x128x512 : S1x128x512.Broadcasts S16x128x512
  shapeCasts_S1x512_S1x1x512 : S1x512.ShapeCasts S1x1x512
  broadcasts_S1x1x512_S16x128x512 : S1x1x512.Broadcasts S16x128x512
  shapeCasts_S16x128x512_S2048x512 : S16x128x512.ShapeCasts S2048x512
  shapeCasts_S2048x1024_S16x128x1024 : S2048x1024.ShapeCasts S16x128x1024
  shapeCasts_S1x1024_S1x1x1024 : S1x1024.ShapeCasts S1x1x1024
  broadcasts_S1x1x1024_S16x128x1024 : S1x1x1024.Broadcasts S16x128x1024
  reduces_S16x128x1024_S16x128 : S16x128x1024.Reduces [2] S16x128
  shapeCasts_S16x128_S16x128x1 : S16x128.ShapeCasts S16x128x1
  broadcasts_S16x128x1_S16x128x1024 : S16x128x1.Broadcasts S16x128x1024
  inb_S1x16x128x1024_S1x16x128x1024_0_0_0_0 : ∀ a, (![0, 0, 0, 0] : Fin 4 → Nat) a + S1x16x128x1024.size a ≤ S1x16x128x1024.size a
  h_S1x16x128x1024 : 0 < S1x16x128x1024.numel
  shapeCasts_S1x16x128x1024_S16x128x1024 : S1x16x128x1024.ShapeCasts S16x128x1024
  shapeCasts_S16x128x1024_S1x16x128x1024 : S16x128x1024.ShapeCasts S1x16x128x1024
  dot_S1024x256_S256x512_S1024x512_1_0_0_1_n_n_wf : DotDims.WF S1024x256 S256x512 S1024x512 [1] [0] [0] [1] [] []
  dot_S512x256_S256x512_S512x512_1_0_0_1_n_n_wf : DotDims.WF S512x256 S256x512 S512x512 [1] [0] [0] [1] [] []
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S4x256x512.size a
  hwx0_0 : ∀ i : grid0.Coords, EltTy.bits .f32 = 32 ∨ (Rect.block (s := S4x256x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S4x128x512.size a
  hwx0_1 : ∀ i : grid0.Coords, EltTy.bits .f32 = 32 ∨ (Rect.block (s := S4x128x512) S1x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x128x1024.size a ≤ S4x256x128x1024.size a
  hwx0_5 : ∀ i : grid0.Coords, EltTy.bits .f32 = 32 ∨ (Rect.block (s := S4x256x128x1024) S1x16x128x1024.size (cc0_transform_5 i) (hinb0_5 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v8) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x16x128x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x256x256 : Shape := ⟨3, ![4, 256, 256]⟩
abbrev S4x128x256 : Shape := ⟨3, ![4, 128, 256]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S4x256x1x256 : Shape := ⟨4, ![4, 256, 1, 256]⟩
abbrev S4x256x128x256 : Shape := ⟨4, ![4, 256, 128, 256]⟩
abbrev S4x1x128x256 : Shape := ⟨4, ![4, 1, 128, 256]⟩
abbrev S4x256x128x512 : Shape := ⟨4, ![4, 256, 128, 512]⟩
abbrev S1x1x1x512 : Shape := ⟨4, ![1, 1, 1, 512]⟩
abbrev S_ : Shape := ⟨0, ![]⟩
abbrev S4x256x128x1024 : Shape := ⟨4, ![4, 256, 128, 1024]⟩
abbrev S1x1x1x1024 : Shape := ⟨4, ![1, 1, 1, 1024]⟩
abbrev S4x256x128 : Shape := ⟨3, ![4, 256, 128]⟩
abbrev S4x256x128x1 : Shape := ⟨4, ![4, 256, 128, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x128x256, .f32⟩
  | .hbm, ⟨2, _⟩ => ⟨S512x512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S4x256x1x256, .f32⟩
  | .hbm, ⟨7, _⟩ => ⟨S4x256x128x256, .f32⟩
  | .hbm, ⟨8, _⟩ => ⟨S4x1x128x256, .f32⟩
  | .hbm, ⟨9, _⟩ => ⟨S4x256x128x256, .f32⟩
  | .hbm, ⟨10, _⟩ => ⟨S4x256x128x512, .f32⟩
  | .hbm, ⟨11, _⟩ => ⟨S4x256x128x512, .f32⟩
  | .hbm, ⟨12, _⟩ => ⟨S1x1x1x512, .f32⟩
  | .hbm, ⟨13, _⟩ => ⟨S4x256x128x512, .f32⟩
  | .hbm, ⟨14, _⟩ => ⟨S4x256x128x512, .f32⟩
  | .hbm, ⟨15, _⟩ => ⟨S_, .f32⟩
  | .hbm, ⟨16, _⟩ => ⟨S4x256x128x512, .f32⟩
  | .hbm, ⟨17, _⟩ => ⟨S4x256x128x512, .f32⟩
  | .hbm, ⟨18, _⟩ => ⟨S4x256x128x1024, .f32⟩
  | .hbm, ⟨19, _⟩ => ⟨S1x1x1x1024, .f32⟩
  | .hbm, ⟨20, _⟩ => ⟨S4x256x128x1024, .f32⟩
  | .hbm, ⟨21, _⟩ => ⟨S4x256x128x1024, .f32⟩
  | .hbm, ⟨22, _⟩ => ⟨S_, .f32⟩
  | .hbm, ⟨23, _⟩ => ⟨S4x256x128, .f32⟩
  | .hbm, ⟨24, _⟩ => ⟨S_, .f32⟩
  | .hbm, ⟨25, _⟩ => ⟨S4x256x128, .f32⟩
  | .hbm, ⟨26, _⟩ => ⟨S4x256x128, .f32⟩
  | .hbm, ⟨27, _⟩ => ⟨S4x256x128x1, .f32⟩
  | .hbm, ⟨28, _⟩ => ⟨S4x256x128x1024, .f32⟩
  | .hbm, ⟨29, _⟩ => ⟨S4x256x128x1024, .f32⟩
  | .hbm, ⟨30, _⟩ => ⟨S4x256x128x1024, .f32⟩
  | .hbm, ⟨31, _⟩ => ⟨S_, .f32⟩
  | .hbm, ⟨32, _⟩ => ⟨S4x256x128, .f32⟩
  | .hbm, ⟨33, _⟩ => ⟨S4x256x128x1, .f32⟩
  | .hbm, ⟨34, _⟩ => ⟨S4x256x128x1, .f32⟩
  | .hbm, ⟨35, _⟩ => ⟨S4x256x128x1024, .f32⟩
  | .hbm, ⟨36, _⟩ => ⟨S4x256x128x1024, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call1_cst : Ref sig .tc := ⟨.hbm, 22, rfl⟩
abbrev main_call1_v0 : Ref sig .tc := ⟨.hbm, 23, rfl⟩
abbrev main_call1_cst_0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_cst_1 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_v14 : Ref sig .tc := ⟨.hbm, 36, rfl⟩

abbrev nD : Nat := 1
abbrev τ : Topo := Topo.v7x

variable {F : FTy → Type} [FloatOps F]

class Facts₀ : Prop where
  bcast_S4x256x256_S4x256x1x256_0_1_3 : S4x256x256.BroadcastsInDim S4x256x1x256 (![0, 1, 3] : Fin 3 → Fin S4x256x1x256.rank)
  bcast_S4x256x1x256_S4x256x128x256_0_1_2_3 : S4x256x1x256.BroadcastsInDim S4x256x128x256 (![0, 1, 2, 3] : Fin 4 → Fin S4x256x128x256.rank)
  bcast_S4x128x256_S4x1x128x256_0_2_3 : S4x128x256.BroadcastsInDim S4x1x128x256 (![0, 2, 3] : Fin 3 → Fin S4x1x128x256.rank)
  bcast_S4x1x128x256_S4x256x128x256_0_1_2_3 : S4x1x128x256.BroadcastsInDim S4x256x128x256 (![0, 1, 2, 3] : Fin 4 → Fin S4x256x128x256.rank)
  concatenates_S4x256x128x256_S4x256x128x256_S4x256x128x512_d3 : Shape.Concatenates [S4x256x128x256, S4x256x128x256] S4x256x128x512 3
  bcast_S512_S1x1x1x512_3 : S512.BroadcastsInDim S1x1x1x512 (![3] : Fin 1 → Fin S1x1x1x512.rank)
  bcast_S1x1x1x512_S4x256x128x512_0_1_2_3 : S1x1x1x512.BroadcastsInDim S4x256x128x512 (![0, 1, 2, 3] : Fin 4 → Fin S4x256x128x512.rank)
  bcast_S_S4x256x128x512 : S_.BroadcastsInDim S4x256x128x512 (![] : Fin 0 → Fin S4x256x128x512.rank)
  bcast_S1024_S1x1x1x1024_3 : S1024.BroadcastsInDim S1x1x1x1024 (![3] : Fin 1 → Fin S1x1x1x1024.rank)
  bcast_S1x1x1x1024_S4x256x128x1024_0_1_2_3 : S1x1x1x1024.BroadcastsInDim S4x256x128x1024 (![0, 1, 2, 3] : Fin 4 → Fin S4x256x128x1024.rank)
  reducesTo_S4x256x128x1024_S4x256x128_d3 : S4x256x128x1024.ReducesTo [3] S4x256x128
  h_S_ : 0 < S_.numel
  bcast_S_S4x256x128 : S_.BroadcastsInDim S4x256x128 (![] : Fin 0 → Fin S4x256x128.rank)
  bcast_S4x256x128_S4x256x128x1_0_1_2 : S4x256x128.BroadcastsInDim S4x256x128x1 (![0, 1, 2] : Fin 3 → Fin S4x256x128x1.rank)
  bcast_S4x256x128x1_S4x256x128x1024_0_1_2_3 : S4x256x128x1.BroadcastsInDim S4x256x128x1024 (![0, 1, 2, 3] : Fin 4 → Fin S4x256x128x1024.rank)
  dot_S4x256x128x512_S512x512_S4x256x128x512_3_0_012_1_n_n_wf : DotDims.WF S4x256x128x512 S512x512 S4x256x128x512 [3] [0] [0, 1, 2] [1] [] []
  dot_S4x256x128x512_S512x1024_S4x256x128x1024_3_0_012_1_n_n_wf : DotDims.WF S4x256x128x512 S512x1024 S4x256x128x1024 [3] [0] [0, 1, 2] [1] [] []

variable [Facts₀]

def dot_S4x256x128x512_S512x512_S4x256x128x512_3_0_012_1_n_n : DotDims S4x256x128x512 S512x512 S4x256x128x512 where
  lhsContracting := [3]
  rhsContracting := [0]
  lhsNonContracting := [0, 1, 2]
  rhsNonContracting := [1]
  lhsBatch := []
  rhsBatch := []
  wf := dot_S4x256x128x512_S512x512_S4x256x128x512_3_0_012_1_n_n_wf
def dot_S4x256x128x512_S512x1024_S4x256x128x1024_3_0_012_1_n_n : DotDims S4x256x128x512 S512x1024 S4x256x128x1024 where
  lhsContracting := [3]
  rhsContracting := [0]
  lhsNonContracting := [0, 1, 2]
  rhsNonContracting := [1]
  lhsBatch := []
  rhsBatch := []
  wf := dot_S4x256x128x512_S512x1024_S4x256x128x1024_3_0_012_1_n_n_wf

class Facts : Prop extends Facts₀ where

variable [Facts]
-- ==== Proof.Spec.lean ====
/-
  What both programs compute, as one function of the six argument arrays.

  For a batch `b`, a source position `t`, a target position `s`:
    * the hidden pre-activation at unit `h` is  (Σ_f src(b,t,f)·W1(f,h)) + (Σ_f tgt(b,s,f)·W1(256+f,h)) + b1(h):
      the first 256 rows of W1 meet the source encoding, the last 256 rows the target encoding;
    * the hidden activation is its maximum with the zero literal;
    * the logit at vocabulary entry `v` is  (Σ_h hidden(h)·W2(h,v)) + b2(v);
    * the result is the log-softmax of the row of logits: each logit less the row's maximum, less the logarithm of
      the sum over the row of the exponentials of the logits less the maximum.
  Everything is on the extended reals; only sums, products, maxima, `exp` and `log` occur, in this order, so no
  finiteness of the arguments is used anywhere.
-/
import Idealize.ShloMosaic.PureOps.Ideal
import Idealize.ShloMosaic.Lib.ValueIdx

noncomputable section

open scoped BigOperators

namespace Cert.JointSpec

open Idealize.ShloMosaic Idealize.ShloMosaic.ValueIdx

/-- The f32 zero literal, kept as the word both programs print. -/
abbrev zeroLit : EReal := Ideal.ofBits .f32 0x00000000#32
/-- The f32 minus-infinity literal a row maximum starts from, kept as the word both programs print. -/
abbrev negInfLit : EReal := Ideal.ofBits .f32 0xFF800000#32

/-- The maximum of a row of 1024 logits, folded from the minus-infinity literal. -/
def rowMax (l : Fin 1024 → EReal) : EReal := (Finset.univ : Finset (Fin 1024)).fold max negInfLit l

/-- The log-softmax of a row of 1024 logits at entry `v`. -/
def lsmRow (l : Fin 1024 → EReal) (v : Fin 1024) : EReal :=
  (l v - rowMax l) - Ideal.log (∑ k : Fin 1024, Ideal.exp (l k - rowMax l))

/-- A logit from a row of 512 hidden activations: its product with column `v` of W2, plus the bias. -/
def logitOf (W2 : (⟨2, ![512, 1024]⟩ : Shape).Idx → EReal) (b2 : (⟨1, ![1024]⟩ : Shape).Idx → EReal)
    (hid : Fin 512 → EReal) (v : Fin 1024) : EReal :=
  (∑ h : Fin 512, hid h * W2 (ix2 h v)) + b2 (ix1 v)

/-- Row `f` of the upper half of W1 (rows 0 … 255). -/
abbrev upper (f : Fin 256) : Fin 512 := ⟨f.val, by omega⟩
/-- Row `f` of the lower half of W1 (rows 256 … 511). -/
abbrev lower (f : Fin 256) : Fin 512 := ⟨256 + f.val, by omega⟩

/-- The source encoding at `(b, t)` against the upper half of W1, at hidden unit `h`. -/
def srcPart (src : (⟨3, ![4, 256, 256]⟩ : Shape).Idx → EReal) (W1 : (⟨2, ![512, 512]⟩ : Shape).Idx → EReal)
    (b : Fin 4) (t : Fin 256) (h : Fin 512) : EReal :=
  ∑ f : Fin 256, src (ix3 b t f) * W1 (ix2 (upper f) h)

/-- The target encoding at `(b, s)` against the lower half of W1, at hidden unit `h`. -/
def tgtPart (tgt : (⟨3, ![4, 128, 256]⟩ : Shape).Idx → EReal) (W1 : (⟨2, ![512, 512]⟩ : Shape).Idx → EReal)
    (b : Fin 4) (s : Fin 128) (h : Fin 512) : EReal :=
  ∑ f : Fin 256, tgt (ix3 b s f) * W1 (ix2 (lower f) h)

/-- The hidden activation at `(b, t, s)`, unit `h`. -/
def hidden (src : (⟨3, ![4, 256, 256]⟩ : Shape).Idx → EReal) (tgt : (⟨3, ![4, 128, 256]⟩ : Shape).Idx → EReal)
    (W1 : (⟨2, ![512, 512]⟩ : Shape).Idx → EReal) (b1 : (⟨1, ![512]⟩ : Shape).Idx → EReal)
    (b : Fin 4) (t : Fin 256) (s : Fin 128) (h : Fin 512) : EReal :=
  max (srcPart src W1 b t h + tgtPart tgt W1 b s h + b1 (ix1 h)) zeroLit

/-- The result at `(b, t, s, v)`. -/
def outAt (src : (⟨3, ![4, 256, 256]⟩ : Shape).Idx → EReal) (tgt : (⟨3, ![4, 128, 256]⟩ : Shape).Idx → EReal)
    (W1 : (⟨2, ![512, 512]⟩ : Shape).Idx → EReal) (b1 : (⟨1, ![512]⟩ : Shape).Idx → EReal)
    (W2 : (⟨2, ![512, 1024]⟩ : Shape).Idx → EReal) (b2 : (⟨1, ![1024]⟩ : Shape).Idx → EReal)
    (b : Fin 4) (t : Fin 256) (s : Fin 128) (v : Fin 1024) : EReal :=
  lsmRow (logitOf W2 b2 (hidden src tgt W1 b1 b t s)) v

/-- The whole result array. -/
def G (src : (⟨3, ![4, 256, 256]⟩ : Shape).Idx → EReal) (tgt : (⟨3, ![4, 128, 256]⟩ : Shape).Idx → EReal)
    (W1 : (⟨2, ![512, 512]⟩ : Shape).Idx → EReal) (b1 : (⟨1, ![512]⟩ : Shape).Idx → EReal)
    (W2 : (⟨2, ![512, 1024]⟩ : Shape).Idx → EReal) (b2 : (⟨1, ![1024]⟩ : Shape).Idx → EReal) :
    (⟨4, ![4, 256, 128, 1024]⟩ : Shape).Idx → EReal :=
  fun i => outAt src tgt W1 b1 W2 b2 (i 0) (i 1) (i 2) (i 3)

theorem G_ix4 (src : (⟨3, ![4, 256, 256]⟩ : Shape).Idx → EReal) (tgt : (⟨3, ![4, 128, 256]⟩ : Shape).Idx → EReal)
    (W1 : (⟨2, ![512, 512]⟩ : Shape).Idx → EReal) (b1 : (⟨1, ![512]⟩ : Shape).Idx → EReal)
    (W2 : (⟨2, ![512, 1024]⟩ : Shape).Idx → EReal) (b2 : (⟨1, ![1024]⟩ : Shape).Idx → EReal)
    (b : Fin 4) (t : Fin 256) (s : Fin 128) (v : Fin 1024) :
    G src tgt W1 b1 W2 b2 (ix4 b t s v) = outAt src tgt W1 b1 W2 b2 b t s v := rfl

end Cert.JointSpec

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.HostPrefix.lean ====
/-
  The five arrays the kernel's region reads, as the host operations before it leave them, read at an index.

  * the source projection: the source encodings, flattened to 1024 rows, times the upper 256 rows of W1, laid out
    again as [4, 256, 512]: at (b, t, h) it is Σ_f src(b,t,f)·W1(f,h);
  * the target projection: the target encodings, flattened to 512 rows, times the lower 256 rows of W1, laid out again
    as [4, 128, 512]: at (b, s, h) it is Σ_f tgt(b,s,f)·W1(256+f,h);
  * b1 and b2 as one-row matrices, W2 itself (a change of float format is the identity on the extended reals).
-/
import proofs.«140198_j26577257628395_2_alg».proof.Proof.Gen.KernelIdeal.Frame
import proofs.«140198_j26577257628395_2_alg».proof.Proof.Spec
import proofs.«140198_j26577257628395_2_alg».proof.Proof.LibBlock
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

open scoped BigOperators

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx Cert.JointSpec

/-- The host's plain matrix product `[M, K] × [K, N]` read at `(p, q)`: the sum over the contracted coordinate. -/
theorem hostDot_ix2 {M K N : Nat} (D : DotDims ⟨2, ![M, K]⟩ ⟨2, ![K, N]⟩ ⟨2, ![M, N]⟩)
    (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) D prec lhs rhs (ix2 p q) = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.dotGeneral_apply D prec .single lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact Cert.LibBlock.lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact Cert.LibBlock.rhsIdx_val_col D hlb hln hrb hrn _ _)
  rw [el, er]

variable (m : (ℓ : Loc nD τ sig) → Buf (Elt Ideal) ℓ)

/-- The source projection as the host operations compute it. -/
theorem srcProj_eq (c : Dev nD) : (V m c main_v8 : S4x256x512.Idx → EReal)
    = shapeCast S4x256x512 (Host.dotGeneral (F := Ideal) dot_S1024x256_S256x512_S1024x512_1_0_0_1_n_n none
        (truncf .bf16 (shapeCast S1024x256 (m ((c : Thread nD τ).loc main_arg0) : S4x256x256.Idx → EReal) shapeCasts_S4x256x256_S1024x256) bitsLt_bf16_f32)
        (truncf .bf16 (extractStridedSlice S256x512 ![0, 0] (m ((c : Thread nD τ).loc main_arg2) : S512x512.Idx → EReal) slices_S512x512_S256x512_0_0) bitsLt_bf16_f32))
        shapeCasts_S1024x512_S4x256x512 := by
  dsimp only [Gen.V, Gen.hostOps0]; after_results; rfl

/-- The target projection as the host operations compute it. -/
theorem tgtProj_eq (c : Dev nD) : (V m c main_v12 : S4x128x512.Idx → EReal)
    = shapeCast S4x128x512 (Host.dotGeneral (F := Ideal) dot_S512x256_S256x512_S512x512_1_0_0_1_n_n none
        (truncf .bf16 (shapeCast S512x256 (m ((c : Thread nD τ).loc main_arg1) : S4x128x256.Idx → EReal) shapeCasts_S4x128x256_S512x256) bitsLt_bf16_f32)
        (truncf .bf16 (extractStridedSlice S256x512 ![256, 0] (m ((c : Thread nD τ).loc main_arg2) : S512x512.Idx → EReal) slices_S512x512_S256x512_256_0) bitsLt_bf16_f32))
        shapeCasts_S512x512_S4x128x512 := by
  dsimp only [Gen.V, Gen.hostOps0]; after_results; rfl

theorem b1row_eq (c : Dev nD) : (V m c main_v13 : S1x512.Idx → EReal)
    = shapeCast S1x512 (m ((c : Thread nD τ).loc main_arg3) : S512.Idx → EReal) shapeCasts_S512_S1x512 := by
  dsimp only [Gen.V, Gen.hostOps0]; after_results; rfl

theorem w2_eq (c : Dev nD) : (V m c main_v4 : S512x1024.Idx → EReal)
    = (truncf (F := Ideal) .bf16 (m ((c : Thread nD τ).loc main_arg4) : FVec Ideal S512x1024 .f32) bitsLt_bf16_f32 : S512x1024.Idx → EReal) := by
  dsimp only [Gen.V, Gen.hostOps0]; after_results

theorem b2row_eq (c : Dev nD) : (V m c main_v14 : S1x1024.Idx → EReal)
    = shapeCast S1x1024 (m ((c : Thread nD τ).loc main_arg5) : S1024.Idx → EReal) shapeCasts_S1024_S1x1024 := by
  dsimp only [Gen.V, Gen.hostOps0]; after_results; rfl

/-- The source projection at `(b, t, h)`. -/
theorem srcProj_apply (c : Dev nD) (b : Fin 4) (t : Fin 256) (h : Fin 512) :
    (V m c main_v8 : S4x256x512.Idx → EReal) (ix3 b t h)
      = srcPart (m ((c : Thread nD τ).loc main_arg0)) (m ((c : Thread nD τ).loc main_arg2)) b t h := by
  rw [srcProj_eq]
  have hb : b.val < 4 := b.isLt
  have ht : t.val < 256 := t.isLt
  refine (shapeCast_apply _ shapeCasts_S1024x512_S4x256x512 (ix3 b t h)
    (ix2 (⟨b.val * 256 + t.val, by omega⟩ : Fin 1024) h) (by
      rw [Shape.rowMajor_val_two, Shape.rowMajor_val_three]
      show (b.val * 256 + t.val) * 512 + h.val = (b.val * 256 + t.val) * 512 + h.val
      rfl)).trans ?_
  refine (hostDot_ix2 _ rfl rfl rfl rfl rfl rfl none _ _ _ _).trans ?_
  unfold srcPart
  refine Finset.sum_congr rfl fun f _ => ?_
  have hf : f.val < 256 := f.isLt
  congr 1
  · show shapeCast S1024x256 _ shapeCasts_S4x256x256_S1024x256 (ix2 (⟨b.val * 256 + t.val, by omega⟩ : Fin 1024) f) = _
    exact shapeCast_apply _ shapeCasts_S4x256x256_S1024x256 _ (ix3 b t f) (by
      rw [Shape.rowMajor_val_two, Shape.rowMajor_val_three]
      show (b.val * 256 + t.val) * 256 + f.val = (b.val * 256 + t.val) * 256 + f.val
      rfl)
  · exact extractStridedSlice_apply _ _ slices_S512x512_S256x512_0_0 (ix2 f h) (ix2 (upper f) h) (fun a => by
      match a with
      | ⟨0, _⟩ => show f.val = 0 + f.val; omega
      | ⟨1, _⟩ => show h.val = 0 + h.val; omega)

/-- The target projection at `(b, s, h)`. -/
theorem tgtProj_apply (c : Dev nD) (b : Fin 4) (s : Fin 128) (h : Fin 512) :
    (V m c main_v12 : S4x128x512.Idx → EReal) (ix3 b s h)
      = tgtPart (m ((c : Thread nD τ).loc main_arg1)) (m ((c : Thread nD τ).loc main_arg2)) b s h := by
  rw [tgtProj_eq]
  have hb : b.val < 4 := b.isLt
  have hs : s.val < 128 := s.isLt
  refine (shapeCast_apply _ shapeCasts_S512x512_S4x128x512 (ix3 b s h)
    (ix2 (⟨b.val * 128 + s.val, by omega⟩ : Fin 512) h) (by
      rw [Shape.rowMajor_val_two, Shape.rowMajor_val_three]
      show (b.val * 128 + s.val) * 512 + h.val = (b.val * 128 + s.val) * 512 + h.val
      rfl)).trans ?_
  refine (hostDot_ix2 _ rfl rfl rfl rfl rfl rfl none _ _ _ _).trans ?_
  unfold tgtPart
  refine Finset.sum_congr rfl fun f _ => ?_
  have hf : f.val < 256 := f.isLt
  congr 1
  · show shapeCast S512x256 _ shapeCasts_S4x128x256_S512x256 (ix2 (⟨b.val * 128 + s.val, by omega⟩ : Fin 512) f) = _
    exact shapeCast_apply _ shapeCasts_S4x128x256_S512x256 _ (ix3 b s f) (by
      rw [Shape.rowMajor_val_two, Shape.rowMajor_val_three]
      show (b.val * 128 + s.val) * 256 + f.val = (b.val * 128 + s.val) * 256 + f.val
      rfl)
  · exact extractStridedSlice_apply _ _ slices_S512x512_S256x512_256_0 (ix2 f h) (ix2 (lower f) h) (fun a => by
      match a with
      | ⟨0, _⟩ => show 256 + f.val = 256 + f.val; rfl
      | ⟨1, _⟩ => show h.val = 0 + h.val; omega)

/-- The bias row b1 at `(0, h)`. -/
theorem b1row_apply (c : Dev nD) (h : Fin 512) :
    (V m c main_v13 : S1x512.Idx → EReal) (ix2 (0 : Fin 1) h) = (m ((c : Thread nD τ).loc main_arg3) : S512.Idx → EReal) (ix1 h) := by
  rw [b1row_eq]
  exact shapeCast_apply _ shapeCasts_S512_S1x512 _ (ix1 h) (by
    rw [Shape.rowMajor_val_one, Shape.rowMajor_val_two]
    show h.val = 0 * 512 + h.val
    omega)

/-- W2 at `(h, k)`. -/
theorem w2_apply (c : Dev nD) (h : Fin 512) (k : Fin 1024) :
    (V m c main_v4 : S512x1024.Idx → EReal) (ix2 h k) = (m ((c : Thread nD τ).loc main_arg4) : S512x1024.Idx → EReal) (ix2 h k) := by
  rw [w2_eq]; rfl

/-- The bias row b2 at `(0, k)`. -/
theorem b2row_apply (c : Dev nD) (k : Fin 1024) :
    (V m c main_v14 : S1x1024.Idx → EReal) (ix2 (0 : Fin 1) k) = (m ((c : Thread nD τ).loc main_arg5) : S1024.Idx → EReal) (ix1 k) := by
  rw [b2row_eq]
  exact shapeCast_apply _ shapeCasts_S1024_S1x1024 _ (ix1 k) (by
    rw [Shape.rowMajor_val_one, Shape.rowMajor_val_two]
    show k.val = 0 * 1024 + k.val
    omega)

end Cert.KernelIdeal.Prefix

end
-- ==== Proof.LibLanes3.lean ====
/-
  A reduction over the last axis of a rank-3 vector, read at an index of the rank-2 result.

  * `multiReduction_add_lanes3_apply`: the sum over the last axis of an `[a, b, c]` vector, read at `(p, q)`, is
    `∑ k : Fin c, src (p, q, k)`;
  * `multiReduction_maximumf_lanes3_apply`: the maximum over the last axis, read at `(p, q)`, is the fold of `max`
    from the accumulator's value over `k : Fin c` of `src (p, q, k)`.
  Both hold for any extents and any float format: they are the one-axis readings of the ideal values' reductions with the
  inserted index spelt by its three coordinates.
-/
import Idealize.ShloMosaic.Lib.ValueIdx
import Idealize.ShloMosaic.PureOps.Ideal.Laws

noncomputable section

open scoped BigOperators

namespace Cert.LibLanes3

open Idealize.ShloMosaic Idealize.ShloMosaic.ValueIdx

/-- The index a last-axis reduction of a rank-3 shape inserts coordinate `k` into, at `(p, q)`, is `(p, q, k)`. -/
theorem lift_lanes3 {a b c : ℕ} (h : (⟨3, ![a, b, c]⟩ : Shape).Reduces [2] ⟨2, ![a, b]⟩) (p : Fin a) (q : Fin b)
    (k : Fin c) : h.lift (ix2 p q) k = ix3 p q k :=
  funext fun ax => Fin.ext (by match ax with | ⟨0, _⟩ => rfl | ⟨1, _⟩ => rfl | ⟨2, _⟩ => rfl)

/-- The sum over the last axis of an `[a, b, c]` vector, read at `(p, q)`: `∑ k, src (p, q, k)`. -/
theorem multiReduction_add_lanes3_apply {a b c : ℕ} {φ : FTy} (src : FVec Ideal ⟨3, ![a, b, c]⟩ φ)
    (acc : BitVec φ.bits) (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_lanes3 h p q k))

/-- The maximum over the last axis of an `[a, b, c]` vector, read at `(p, q)`: the fold of `max` from the
    accumulator's value over `k` of `src (p, q, k)`. -/
theorem multiReduction_maximumf_lanes3_apply {a b c : ℕ} {φ : FTy} (src : FVec Ideal ⟨3, ![a, b, c]⟩ φ)
    (acc : BitVec φ.bits) (h : (⟨3, ![a, b, c]⟩ : Shape).Reduces [2] ⟨2, ![a, b]⟩) (hφ : FKind.Formats φ)
    (hacc : acc = FKind.maximumf.neutral φ hφ) (p : Fin a) (q : Fin b) :
    multiReduction .maximumf [2] ⟨2, ![a, b]⟩ src acc h hφ hacc (ix2 p q)
      = (Finset.univ : Finset (Fin c)).fold max (FloatOps.ofBits φ acc) (fun k => src (ix3 p q k)) :=
  (Ideal.multiReduction_maximumf_single src acc h hφ hacc (ix2 p q)).trans
    (congrArg (fun f => (Finset.univ : Finset (Fin c)).fold max (FloatOps.ofBits φ acc) f)
      (funext fun k => congrArg src (lift_lanes3 h p q k)))

end Cert.LibLanes3

end
-- ==== Proof.Body.lean ====
/-
  The kernel body's arithmetic read at an index, at the ideal values.

  From the five loaded blocks P0 [1,16,512], P1 [1,128,512], P2 [1,512], P3 [512,1024], P4 [1,1024] the body forms
    pre(p, s, h)  = P0(0, p, h) + P1(0, s, h) + P2(0, h),
    hid(p, s, h)  = max (pre(p, s, h)) 0,
    z(p, s, v)    = (∑ h, hid(p, s, h) · P3(h, v)) + P4(0, v),
    out(p, s, v)  = (z(p, s, v) − m(p, s)) − log (∑ k, exp (z(p, s, k) − m(p, s))),   m(p, s) = max over k of z(p, s, k),
  the maximum folded from the minus-infinity literal. `pay_apply` states this of the body's one pure term at the index
  `(p, s, v)`: it is the log-softmax of the row `k ↦ z(p, s, k)` at `v`.

  The proof names three vectors — the hidden activations `hidV`, the logits `logitsV`, the row-wise log-softmax `lsmV`
  of any `[16, 128, 1024]` vector — of which the body's term is the composition by definition (`pay_eq`), and reads each
  at an index: every shape cast and broadcast by the row-major position of the index, the matrix product as the sum over
  the contracted coordinate, the two reductions over the last axis as the sum and the fold of `max` over its coordinate.
-/
import proofs.«140198_j26577257628395_2_alg».proof.Proof.Gen.KernelIdeal.Skeleton
import proofs.«140198_j26577257628395_2_alg».proof.Proof.Spec
import proofs.«140198_j26577257628395_2_alg».proof.Proof.LibBlock
import proofs.«140198_j26577257628395_2_alg».proof.Proof.LibLanes3
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-! ## Shape casts and broadcasts read at an index -/

section Layout
variable {α : Type}

/-- A `[1, 16, 512]` block viewed `[16, 512]`, then `[16, 1, 512]`, broadcast along the middle axis to
    `[16, 128, 512]`: at `(p, s, h)` it reads the block at `(0, p, h)`. -/
theorem rows_apply (x : S1x16x512.Idx → α) (h1 : S1x16x512.ShapeCasts S16x512) (h2 : S16x512.ShapeCasts S16x1x512)
    (hb : S16x1x512.Broadcasts S16x128x512) (p : Fin 16) (s : Fin 128) (h : Fin 512) :
    broadcastTo S16x128x512 (shapeCast S16x1x512 (shapeCast S16x512 x h1) h2) hb (ix3 p s h) = x (ix3 (0 : Fin 1) p h) := by
  refine (broadcastTo_apply _ hb (ix3 p s h) (ix3 p (0 : Fin 1) h) (fun a => match a with
    | ⟨0, _⟩ => by show p.val = if (16 : Nat) = 1 then 0 else p.val; rw [if_neg (by decide)]
    | ⟨1, _⟩ => by show (0 : Nat) = if (1 : Nat) = 1 then 0 else s.val; rw [if_pos rfl]
    | ⟨2, _⟩ => by show h.val = if (512 : Nat) = 1 then 0 else h.val; rw [if_neg (by decide)])).trans ?_
  refine (shapeCast_apply _ h2 (ix3 p (0 : Fin 1) h) (ix2 p h) (by
    rw [Shape.rowMajor_val_two, Shape.rowMajor_val_three]
    show p.val * 512 + h.val = (p.val * 1 + 0) * 512 + h.val
    omega)).trans ?_
  exact shapeCast_1ab_ab_apply x h1 p h

/-- A `[1, 128, 512]` block viewed `[128, 512]` and back, broadcast along the leading axis to `[16, 128, 512]`: at
    `(p, s, h)` it reads the block at `(0, s, h)`. -/
theorem cols_apply (x : S1x128x512.Idx → α) (h1 : S1x128x512.ShapeCasts S128x512) (h2 : S128x512.ShapeCasts S1x128x512)
    (hb : S1x128x512.Broadcasts S16x128x512) (p : Fin 16) (s : Fin 128) (h : Fin 512) :
    broadcastTo S16x128x512 (shapeCast S1x128x512 (shapeCast S128x512 x h1) h2) hb (ix3 p s h) = x (ix3 (0 : Fin 1) s h) := by
  rw [shapeCast_shapeCast x h1 h2]
  exact broadcastTo_apply x hb (ix3 p s h) (ix3 (0 : Fin 1) s h) (fun a => match a with
    | ⟨0, _⟩ => by show (0 : Nat) = if (1 : Nat) = 1 then 0 else p.val; rw [if_pos rfl]
    | ⟨1, _⟩ => by show s.val = if (128 : Nat) = 1 then 0 else s.val; rw [if_neg (by decide)]
    | ⟨2, _⟩ => by show h.val = if (512 : Nat) = 1 then 0 else h.val; rw [if_neg (by decide)])

/-- A `[1, n]` row viewed `[1, 1, n]` and broadcast along both leading axes to `[a, b, n]`: at `(p, s, c)` it reads the
    row at `(0, c)`. -/
theorem row_apply {a b n : ℕ} (x : (⟨2, ![1, n]⟩ : Shape).Idx → α)
    (h1 : (⟨2, ![1, n]⟩ : Shape).ShapeCasts ⟨2, ![1, n]⟩) (h2 : (⟨2, ![1, n]⟩ : Shape).ShapeCasts ⟨3, ![1, 1, n]⟩)
    (hb : (⟨3, ![1, 1, n]⟩ : Shape).Broadcasts ⟨3, ![a, b, n]⟩) (p : Fin a) (s : Fin b) (c : Fin n) :
    broadcastTo ⟨3, ![a, b, n]⟩ (shapeCast ⟨3, ![1, 1, n]⟩ (shapeCast ⟨2, ![1, n]⟩ x h1) h2) hb (ix3 p s c)
      = x (ix2 (0 : Fin 1) c) := by
  rw [shapeCast_self x h1]
  refine (broadcastTo_apply _ hb (ix3 p s c) (ix3 (0 : Fin 1) (0 : Fin 1) c) (fun ax => match ax with
    | ⟨0, _⟩ => by show (0 : Nat) = if (1 : Nat) = 1 then 0 else p.val; rw [if_pos rfl]
    | ⟨1, _⟩ => by show (0 : Nat) = if (1 : Nat) = 1 then 0 else s.val; rw [if_pos rfl]
    | ⟨2, _⟩ => by
      show c.val = if n = 1 then 0 else c.val
      split
      · have := c.isLt; omega
      · rfl)).trans ?_
  exact shapeCast_ab_1ab_apply x h2 (0 : Fin 1) (0 : Fin 1) c

/-- A `[16, 128, 1]` vector broadcast along the last axis to `[16, 128, 1024]`: at `(p, s, v)` it reads `(p, s, 0)`. -/
theorem lanes_apply (y : S16x128x1.Idx → α) (hb : S16x128x1.Broadcasts S16x128x1024) (p : Fin 16) (s : Fin 128)
    (v : Fin 1024) : broadcastTo S16x128x1024 y hb (ix3 p s v) = y (ix3 p s (0 : Fin 1)) :=
  broadcastTo_apply y hb (ix3 p s v) (ix3 p s (0 : Fin 1)) (fun a => match a with
    | ⟨0, _⟩ => by show p.val = if (16 : Nat) = 1 then 0 else p.val; rw [if_neg (by decide)]
    | ⟨1, _⟩ => by show s.val = if (128 : Nat) = 1 then 0 else s.val; rw [if_neg (by decide)]
    | ⟨2, _⟩ => by show (0 : Nat) = if (1 : Nat) = 1 then 0 else v.val; rw [if_pos rfl])

/-- A `[16, 128]` vector viewed `[16, 128, 1]`: at `(p, s, 0)` it reads `(p, s)`. -/
theorem keep_apply (y : S16x128.Idx → α) (h : S16x128.ShapeCasts S16x128x1) (p : Fin 16) (s : Fin 128) :
    shapeCast S16x128x1 y h (ix3 p s (0 : Fin 1)) = y (ix2 p s) :=
  shapeCast_apply y h (ix3 p s (0 : Fin 1)) (ix2 p s) (by
    rw [Shape.rowMajor_val_two, Shape.rowMajor_val_three]
    show p.val * 128 + s.val = (p.val * 128 + s.val) * 1 + 0
    omega)

end Layout

/-! ## The three vectors the body composes -/

/-- The hidden activations: the three loads brought to `[16, 128, 512]` and added, then the maximum with the zero
    literal. -/
def hidV (x0 : Vec Ideal S1x16x512 .f32) (x1 : Vec Ideal S1x128x512 .f32) (x2 : Vec Ideal S1x512 .f32) :
    FVec Ideal S16x128x512 .f32 :=
  maximumf
    (addf
      (addf
        (broadcastTo S16x128x512 (shapeCast S16x1x512 (shapeCast S16x512 x0 shapeCasts_S1x16x512_S16x512)
          shapeCasts_S16x512_S16x1x512) broadcasts_S16x1x512_S16x128x512)
        (broadcastTo S16x128x512 (shapeCast S1x128x512 (shapeCast S128x512 x1 shapeCasts_S1x128x512_S128x512)
          shapeCasts_S128x512_S1x128x512) broadcasts_S1x128x512_S16x128x512))
      (broadcastTo S16x128x512 (shapeCast S1x1x512 (shapeCast S1x512 x2 shapeCasts_S1x512_S1x512)
        shapeCasts_S1x512_S1x1x512) broadcasts_S1x1x512_S16x128x512))
    (broadcast S16x128x512 (Scalar.ofBits .f32 0x00000000#32))

/-- The logits: the hidden activations as a `[2048, 512]` matrix times the `[512, 1024]` block, viewed
    `[16, 128, 1024]`, plus the `[1, 1024]` row on every `(p, s)`. -/
def logitsV (x0 : Vec Ideal S1x16x512 .f32) (x1 : Vec Ideal S1x128x512 .f32) (x2 : Vec Ideal S1x512 .f32)
    (x3 : Vec Ideal S512x1024 .bf16) (x4 : Vec Ideal S1x1024 .f32) : FVec Ideal S16x128x1024 .f32 :=
  addf
    (shapeCast S16x128x1024
      (matmul dot_S2048x512_S512x1024_S2048x1024_1_0_0_1_n_n none
        (shapeCast S2048x512 (truncf .bf16 (hidV x0 x1 x2) bitsLt_bf16_f32) shapeCasts_S16x128x512_S2048x512)
        (shapeCast S512x1024 x3 shapeCasts_S512x1024_S512x1024 : FVec Ideal S512x1024 .bf16)
        (constant S2048x1024 .f32 0x00000000#32))
      shapeCasts_S2048x1024_S16x128x1024)
    (broadcastTo S16x128x1024 (shapeCast S1x1x1024 (shapeCast S1x1024 x4 shapeCasts_S1x1024_S1x1024)
      shapeCasts_S1x1024_S1x1x1024) broadcasts_S1x1x1024_S16x128x1024)

/-- The maximum over the last axis of a `[16, 128, 1024]` vector, from the minus-infinity literal, put back on every
    entry of its row. -/
def rowMaxV (z : FVec Ideal S16x128x1024 .f32) : FVec Ideal S16x128x1024 .f32 :=
  broadcastTo S16x128x1024
    (shapeCast S16x128x1
      (multiReduction .maximumf [2] S16x128 z 0xFF800000#32 reduces_S16x128x1024_S16x128 (.inl rfl) rfl)
      shapeCasts_S16x128_S16x128x1)
    broadcasts_S16x128x1_S16x128x1024

/-- The row-wise log-softmax of a `[16, 128, 1024]` vector, as the body computes it. -/
def lsmV (z : FVec Ideal S16x128x1024 .f32) : FVec Ideal S16x128x1024 .f32 :=
  subf (subf z (rowMaxV z))
    (broadcastTo S16x128x1024
      (log (shapeCast S16x128x1
        (multiReduction .add [2] S16x128 (exp (subf z (rowMaxV z))) 0x00000000#32 reduces_S16x128x1024_S16x128 (.inl rfl) rfl)
        shapeCasts_S16x128_S16x128x1))
      broadcasts_S16x128x1_S16x128x1024)

/-- The body's term is the log-softmax of the logits, by definition. -/
theorem pay_eq (P0 : Vec Ideal S1x16x512 .f32) (P1 : Vec Ideal S1x128x512 .f32) (P2 : Vec Ideal S1x512 .f32)
    (P3 : Vec Ideal S512x1024 .bf16) (P4 : Vec Ideal S1x1024 .f32) :
    k0_pay2 (F := Ideal) P0 P1 P2 P3 P4 = lsmV (logitsV P0 P1 P2 P3 P4) := rfl

/-! ## Each vector read at an index -/

/-- The hidden activation at `(p, s, h)`: the maximum of the three loads' sum with the zero literal. -/
theorem hidV_apply (x0 : Vec Ideal S1x16x512 .f32) (x1 : Vec Ideal S1x128x512 .f32) (x2 : Vec Ideal S1x512 .f32)
    (p : Fin 16) (s : Fin 128) (h : Fin 512) :
    hidV x0 x1 x2 (ix3 p s h)
      = max (x0 (ix3 (0 : Fin 1) p h) + x1 (ix3 (0 : Fin 1) s h) + x2 (ix2 (0 : Fin 1) h)) Cert.JointSpec.zeroLit :=
  congrArg (fun t : EReal => max t Cert.JointSpec.zeroLit)
    (congrArg₂ (fun a b : EReal => a + b)
      (congrArg₂ (fun a b : EReal => a + b)
        (rows_apply x0 shapeCasts_S1x16x512_S16x512 shapeCasts_S16x512_S16x1x512 broadcasts_S16x1x512_S16x128x512 p s h)
        (cols_apply x1 shapeCasts_S1x128x512_S128x512 shapeCasts_S128x512_S1x128x512 broadcasts_S1x128x512_S16x128x512 p s h))
      (row_apply x2 shapeCasts_S1x512_S1x512 shapeCasts_S1x512_S1x1x512 broadcasts_S1x1x512_S16x128x512 p s h))

/-- Row `p * 128 + s` of the `[2048, ·]` view of a `[16, 128, ·]` vector. -/
abbrev rowOf (p : Fin 16) (s : Fin 128) : Fin 2048 := ⟨p.val * 128 + s.val, by omega⟩

/-- The matrix product stage: a `[16, 128, 512]` vector viewed `[2048, 512]`, times a `[512, 1024]` matrix into the
    zero splat, viewed `[16, 128, 1024]`: at `(p, s, v)` it is `∑ k, hid (p, s, k) * w (k, v)`. -/
theorem matmul_stage (hid : FVec Ideal S16x128x512 .f32) (w : FVec Ideal S512x1024 .bf16)
    (hlt : FTy.bits .bf16 < FTy.bits .f32) (h1 : S16x128x512.ShapeCasts S2048x512)
    (h2 : S2048x1024.ShapeCasts S16x128x1024) (p : Fin 16) (s : Fin 128) (v : Fin 1024) :
    shapeCast S16x128x1024
        (matmul dot_S2048x512_S512x1024_S2048x1024_1_0_0_1_n_n none
          (shapeCast S2048x512 (truncf .bf16 hid hlt) h1) w (constant S2048x1024 .f32 0x00000000#32))
        h2 (ix3 p s v)
      = ∑ k : Fin 512, hid (ix3 p s k) * w (ix2 k v) := by
  refine (shapeCast_apply _ h2 (ix3 p s v) (ix2 (rowOf p s) v) (by
    rw [Shape.rowMajor_val_two, Shape.rowMajor_val_three]
    show (p.val * 128 + s.val) * 1024 + v.val = (p.val * 128 + s.val) * 1024 + v.val
    rfl)).trans ?_
  refine (Cert.LibBlock.matmul_zero_ix2 dot_S2048x512_S512x1024_S2048x1024_1_0_0_1_n_n rfl rfl rfl rfl rfl rfl none
    (shapeCast S2048x512 (truncf .bf16 hid hlt) h1) w (rowOf p s) v).trans ?_
  refine Finset.sum_congr rfl fun k _ => congrArg (fun t : EReal => t * w (ix2 k v)) ?_
  exact shapeCast_apply (truncf .bf16 hid hlt) h1 (ix2 (rowOf p s) k) (ix3 p s k) (by
    rw [Shape.rowMajor_val_two, Shape.rowMajor_val_three]
    show (p.val * 128 + s.val) * 512 + k.val = (p.val * 128 + s.val) * 512 + k.val
    rfl)

/-- The logit at `(p, s, v)`: the hidden row against column `v` of the matrix, plus the bias at `v`. -/
theorem logitsV_apply (x0 : Vec Ideal S1x16x512 .f32) (x1 : Vec Ideal S1x128x512 .f32) (x2 : Vec Ideal S1x512 .f32)
    (x3 : Vec Ideal S512x1024 .bf16) (x4 : Vec Ideal S1x1024 .f32) (p : Fin 16) (s : Fin 128) (v : Fin 1024) :
    logitsV x0 x1 x2 x3 x4 (ix3 p s v)
      = (∑ h : Fin 512, max (x0 (ix3 (0 : Fin 1) p h) + x1 (ix3 (0 : Fin 1) s h) + x2 (ix2 (0 : Fin 1) h))
            Cert.JointSpec.zeroLit * x3 (ix2 h v))
          + x4 (ix2 (0 : Fin 1) v) :=
  (congrArg₂ (fun a b : EReal => a + b)
    (matmul_stage (hidV x0 x1 x2) (shapeCast S512x1024 x3 shapeCasts_S512x1024_S512x1024) bitsLt_bf16_f32
      shapeCasts_S16x128x512_S2048x512 shapeCasts_S2048x1024_S16x128x1024 p s v)
    (row_apply x4 shapeCasts_S1x1024_S1x1024 shapeCasts_S1x1024_S1x1x1024 broadcasts_S1x1x1024_S16x128x1024 p s v)).trans
  (congrArg (fun t : EReal => t + x4 (ix2 (0 : Fin 1) v))
    (Finset.sum_congr rfl fun k _ => congrArg₂ (fun a b : EReal => a * b) (hidV_apply x0 x1 x2 p s k)
      (congrFun (shapeCast_self x3 shapeCasts_S512x1024_S512x1024) (ix2 k v))))

/-- The row maximum put back on the row: at `(p, s, v)` it is the maximum of the row `k ↦ z (p, s, k)`. -/
theorem rowMaxV_apply (z : FVec Ideal S16x128x1024 .f32) (p : Fin 16) (s : Fin 128) (v : Fin 1024) :
    rowMaxV z (ix3 p s v) = Cert.JointSpec.rowMax (fun k : Fin 1024 => z (ix3 p s k)) :=
  (lanes_apply _ broadcasts_S16x128x1_S16x128x1024 p s v).trans
    ((keep_apply _ shapeCasts_S16x128_S16x128x1 p s).trans
      (Cert.LibLanes3.multiReduction_maximumf_lanes3_apply z 0xFF800000#32 reduces_S16x128x1024_S16x128 (.inl rfl) rfl p s))

/-- The row-wise log-softmax at `(p, s, v)` is the log-softmax of the row `k ↦ z (p, s, k)` at `v`. -/
theorem lsmV_apply (z : FVec Ideal S16x128x1024 .f32) (p : Fin 16) (s : Fin 128) (v : Fin 1024) :
    lsmV z (ix3 p s v) = Cert.JointSpec.lsmRow (fun k : Fin 1024 => z (ix3 p s k)) v := by
  have hsum : broadcastTo S16x128x1024
        (log (shapeCast S16x128x1
          (multiReduction .add [2] S16x128 (exp (subf z (rowMaxV z))) 0x00000000#32 reduces_S16x128x1024_S16x128 (.inl rfl) rfl)
          shapeCasts_S16x128_S16x128x1))
        broadcasts_S16x128x1_S16x128x1024 (ix3 p s v)
      = Ideal.log (∑ k : Fin 1024, Ideal.exp (z (ix3 p s k) - Cert.JointSpec.rowMax (fun k : Fin 1024 => z (ix3 p s k)))) :=
    (lanes_apply _ broadcasts_S16x128x1_S16x128x1024 p s v).trans
      (congrArg Ideal.log
        ((keep_apply _ shapeCasts_S16x128_S16x128x1 p s).trans
          ((Cert.LibLanes3.multiReduction_add_lanes3_apply (exp (subf z (rowMaxV z))) 0x00000000#32
              reduces_S16x128x1024_S16x128 (.inl rfl) rfl p s).trans
            (Finset.sum_congr rfl fun k _ => congrArg (fun t : EReal => Ideal.exp (z (ix3 p s k) - t))
              (rowMaxV_apply z p s k)))))
  exact congrArg₂ (fun a b : EReal => a - b)
    (congrArg (fun t : EReal => z (ix3 p s v) - t) (rowMaxV_apply z p s v)) hsum

/-! ## The body's term at an index -/

/-- The body's term at `(p, s, v)`: the log-softmax, at `v`, of the row of logits
    `k ↦ (∑ h, max (P0 (0, p, h) + P1 (0, s, h) + P2 (0, h)) 0 * P3 (h, k)) + P4 (0, k)`. -/
theorem pay_apply (P0 : Vec Ideal S1x16x512 .f32) (P1 : Vec Ideal S1x128x512 .f32) (P2 : Vec Ideal S1x512 .f32)
    (P3 : Vec Ideal S512x1024 .bf16) (P4 : Vec Ideal S1x1024 .f32) (p : Fin 16) (s : Fin 128) (v : Fin 1024) :
    k0_pay2 (F := Ideal) P0 P1 P2 P3 P4 (ix3 p s v)
      = Cert.JointSpec.lsmRow (fun k : Fin 1024 =>
          (∑ h : Fin 512, max (P0 (ix3 (0 : Fin 1) p h) + P1 (ix3 (0 : Fin 1) s h) + P2 (ix2 (0 : Fin 1) h)) Cert.JointSpec.zeroLit * P3 (ix2 h k))
            + P4 (ix2 (0 : Fin 1) k)) v :=
  (congrFun (pay_eq P0 P1 P2 P3 P4) (ix3 p s v)).trans
    ((lsmV_apply (logitsV P0 P1 P2 P3 P4) p s v).trans
      (congrArg (fun l : Fin 1024 → EReal => Cert.JointSpec.lsmRow l v)
        (funext fun k => logitsV_apply P0 P1 P2 P3 P4 p s k)))

end Cert.KernelIdeal.Body

end
-- ==== Proof.Blocks.lean ====
/-
  From blocks to the whole array. The grid has 4 × 16 points; point (bi, ti) reads rows 16·ti … 16·ti+15 of batch bi
  of the source projection, all of batch bi of the target projection, the two bias rows and W2, and writes back block
  (bi, ti) — 16 × 128 × 1024 entries — of the result. Its entry (p, s, v) is the specification's value at
  (bi, 16·ti + p, s, v); the 64 blocks tile the result array, so the array ends holding the specification.
-/
import proofs.«140198_j26577257628395_2_alg».proof.Proof.Gen.KernelIdeal.Value
import proofs.«140198_j26577257628395_2_alg».proof.Proof.HostPrefix
import proofs.«140198_j26577257628395_2_alg».proof.Proof.Body
import proofs.«140198_j26577257628395_2_alg».proof.Proof.Spec

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.JointSpec
open Idealize.ShloMosaic.Pipeline (Dat)

/-- The body's value at `(p, s, v)` of a block is the specification's value at `(b, t, s, v)` once the five loaded
    blocks are known, where they are read, to hold the source projection's row `t` of batch `b`, the target projection's row
    `s` of batch `b`, b1, W2 and b2. -/
theorem block_value (P0 : Vec Ideal S1x16x512 .f32) (P1 : Vec Ideal S1x128x512 .f32) (P2 : Vec Ideal S1x512 .f32)
    (P3 : Vec Ideal S512x1024 .bf16) (P4 : Vec Ideal S1x1024 .f32)
    (A0 : S4x256x256.Idx → EReal) (A1 : S4x128x256.Idx → EReal) (A2 : S512x512.Idx → EReal) (A3 : S512.Idx → EReal)
    (A4 : S512x1024.Idx → EReal) (A5 : S1024.Idx → EReal)
    (b : Fin 4) (t : Fin 256) (p : Fin 16) (s : Fin 128) (v : Fin 1024)
    (h0 : ∀ h : Fin 512, P0 (ix3 (0 : Fin 1) p h) = srcPart A0 A2 b t h)
    (h1 : ∀ h : Fin 512, P1 (ix3 (0 : Fin 1) s h) = tgtPart A1 A2 b s h)
    (h2 : ∀ h : Fin 512, P2 (ix2 (0 : Fin 1) h) = A3 (ix1 h))
    (h3 : ∀ (h : Fin 512) (k : Fin 1024), P3 (ix2 h k) = A4 (ix2 h k))
    (h4 : ∀ k : Fin 1024, P4 (ix2 (0 : Fin 1) k) = A5 (ix1 k)) :
    k0_pay2 (F := Ideal) P0 P1 P2 P3 P4 (ix3 p s v) = outAt A0 A1 A2 A3 A4 A5 b t s v := by
  rw [Cert.KernelIdeal.Body.pay_apply]
  unfold outAt
  refine congrArg (fun l => lsmRow l v) (funext fun k => ?_)
  unfold logitOf Cert.JointSpec.hidden
  rw [h4 k]
  refine congrArg (· + A5 (ix1 k)) (Finset.sum_congr rfl fun h _ => ?_)
  rw [h0 h, h1 h, h2 h, h3 h k]

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the source projection's block moves with the result's on the batch and row-block
    axes, the target projection's on the batch axis only, the bias rows and W2 stay; the result's block indices range
    over 4 × 16. -/
theorem idx_facts : ∀ t : Fin cfg0.N,
    win0_0.index t (0 : Fin 3) = win0_5.index t (0 : Fin 4) ∧ win0_0.index t (1 : Fin 3) = win0_5.index t (1 : Fin 4)
    ∧ win0_0.index t (2 : Fin 3) = 0
    ∧ win0_1.index t (0 : Fin 3) = win0_5.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) ≤ 3 ∧ win0_5.index t (1 : Fin 4) ≤ 15
    ∧ win0_5.index t (2 : Fin 4) = 0 ∧ win0_5.index t (3 : Fin 4) = 0 :=
  (by decide +kernel : ∀ t : Fin grid0.N, _)

/-- Every block of the result is some point's. -/
theorem idx_onto : ∀ (q0 : Fin 4) (q1 : Fin 16), ∃ t : Fin cfg0.N, win0_5.index t = ![q0.val, q1.val, 0, 0] :=
  (by decide +kernel : ∀ (q0 : Fin 4) (q1 : Fin 16), ∃ t : Fin grid0.N, win0_5.index t = ![q0.val, q1.val, 0, 0])

variable (m : (ℓ : Loc nD τ sig) → Buf (Elt Ideal) ℓ) (ρ : Dev nD → PrngReg)

/-- The specification at the launch contents of the six arguments. -/
abbrev Gm (c : Dev nD) : S4x256x128x1024.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point `t` writes back is block `t` of the specification. -/
theorem flushed_eq (c : Dev nD) (t : Fin cfg0.N) :
    (dats m 0 c).flushed 5 t = ((cfg0.win 5).blk t).view.read (Elt Ideal) (Gm m c) := by
  rw [Value.flushed5]
  unfold out0_5
  simp only [View.ld_unit_zero (S := S1x16x512) hz3, View.ld_unit_zero (S := S1x128x512) hz3,
    View.ld_unit_zero (S := S1x512) hz2, View.ld_unit_zero (S := S512x1024) hz2, View.ld_unit_zero (S := S1x1024) hz2]
  funext y
  refine (Value.canon5_eq (F := Ideal) (iblk m c 0 t) (iblk m c 1 t) (iblk m c 2 t) (iblk m c 3 t) (iblk m c 4 t) y).trans ?_
  show _ = Gm m c (((cfg0.win 5).blk t).view.emb y)
  have hy0 : (y 0).val < 1 := (y 0).isLt
  have hy1 : (y 1).val < 16 := (y 1).isLt
  have hy2 : (y 2).val < 128 := (y 2).isLt
  have hy3 : (y 3).val < 1024 := (y 3).isLt
  obtain ⟨e00, e01, e02, e10, e11, e12, e20, e21, e30, e31, e40, e41, l0, l1, e52, e53⟩ := idx_facts t
  have hemb : ((cfg0.win 5).blk t).view.emb y
      = ix4 (⟨win0_5.index t (0 : Fin 4), by omega⟩ : Fin 4) (⟨win0_5.index t (1 : Fin 4) * 16 + (y 1).val, by omega⟩ : Fin 256)
          (⟨(y 2).val, hy2⟩ : Fin 128) (⟨(y 3).val, hy3⟩ : Fin 1024) := by
    funext a; apply Fin.ext
    match a with
    | ⟨0, _⟩ => show win0_5.index t (0 : Fin 4) * 1 + 1 * (y 0).val = win0_5.index t (0 : Fin 4); omega
    | ⟨1, _⟩ => show win0_5.index t (1 : Fin 4) * 16 + 1 * (y 1).val = win0_5.index t (1 : Fin 4) * 16 + (y 1).val; omega
    | ⟨2, _⟩ => show win0_5.index t (2 : Fin 4) * 128 + 1 * (y 2).val = (y 2).val; omega
    | ⟨3, _⟩ => show win0_5.index t (3 : Fin 4) * 1024 + 1 * (y 3).val = (y 3).val; omega
  rw [hemb]
  show k0_pay2 (F := Ideal) (iblk m c 0 t) (iblk m c 1 t) (iblk m c 2 t) (iblk m c 3 t) (iblk m c 4 t) (Value.ix5_0 y) = _
  have hix : Value.ix5_0 y = ix3 (⟨(y 1).val, hy1⟩ : Fin 16) (⟨(y 2).val, hy2⟩ : Fin 128) (⟨(y 3).val, hy3⟩ : Fin 1024) :=
    funext fun a => Fin.ext (by
      match a with
      | ⟨0, _⟩ => rfl
      | ⟨1, _⟩ => rfl
      | ⟨2, _⟩ => rfl)
  rw [hix]
  show _ = outAt _ _ _ _ _ _ _ _ _ _
  refine block_value _ _ _ _ _ _ _ _ _ _ _ _ _ _ _ _ ?_ ?_ ?_ ?_ ?_
  · intro h
    show (V m c main_v8 : S4x256x512.Idx → EReal) (((cfg0.win 0).blk t).view.emb (ix3 (0 : Fin 1) (⟨(y 1).val, hy1⟩ : Fin 16) h)) = _
    have e : ((cfg0.win 0).blk t).view.emb (ix3 (0 : Fin 1) (⟨(y 1).val, hy1⟩ : Fin 16) h)
        = ix3 (⟨win0_5.index t (0 : Fin 4), by omega⟩ : Fin 4) (⟨win0_5.index t (1 : Fin 4) * 16 + (y 1).val, by omega⟩ : Fin 256) h := by
      funext a; apply Fin.ext
      match a with
      | ⟨0, _⟩ => show win0_0.index t (0 : Fin 3) * 1 + 1 * 0 = win0_5.index t (0 : Fin 4); omega
      | ⟨1, _⟩ => show win0_0.index t (1 : Fin 3) * 16 + 1 * (y 1).val = win0_5.index t (1 : Fin 4) * 16 + (y 1).val; omega
      | ⟨2, _⟩ => show win0_0.index t (2 : Fin 3) * 512 + 1 * h.val = h.val; omega
    rw [e]
    exact Prefix.srcProj_apply m c _ _ h
  · intro h
    show (V m c main_v12 : S4x128x512.Idx → EReal) (((cfg0.win 1).blk t).view.emb (ix3 (0 : Fin 1) (⟨(y 2).val, hy2⟩ : Fin 128) h)) = _
    have e : ((cfg0.win 1).blk t).view.emb (ix3 (0 : Fin 1) (⟨(y 2).val, hy2⟩ : Fin 128) h)
        = ix3 (⟨win0_5.index t (0 : Fin 4), by omega⟩ : Fin 4) (⟨(y 2).val, hy2⟩ : Fin 128) h := by
      funext a; apply Fin.ext
      match a with
      | ⟨0, _⟩ => show win0_1.index t (0 : Fin 3) * 1 + 1 * 0 = win0_5.index t (0 : Fin 4); omega
      | ⟨1, _⟩ => show win0_1.index t (1 : Fin 3) * 128 + 1 * (y 2).val = (y 2).val; omega
      | ⟨2, _⟩ => show win0_1.index t (2 : Fin 3) * 512 + 1 * h.val = h.val; omega
    rw [e]
    exact Prefix.tgtProj_apply m c _ _ h
  · intro h
    show (V m c main_v13 : S1x512.Idx → EReal) (((cfg0.win 2).blk t).view.emb (ix2 (0 : Fin 1) h)) = _
    have e : ((cfg0.win 2).blk t).view.emb (ix2 (0 : Fin 1) h) = ix2 (0 : Fin 1) h := by
      funext a; apply Fin.ext
      match a with
      | ⟨0, _⟩ => show win0_2.index t (0 : Fin 2) * 1 + 1 * 0 = 0; omega
      | ⟨1, _⟩ => show win0_2.index t (1 : Fin 2) * 512 + 1 * h.val = h.val; omega
    rw [e]
    exact Prefix.b1row_apply m c h
  · intro h k
    show (V m c main_v4 : S512x1024.Idx → EReal) (((cfg0.win 3).blk t).view.emb (ix2 h k)) = _
    have e : ((cfg0.win 3).blk t).view.emb (ix2 h k) = ix2 h k := by
      funext a; apply Fin.ext
      match a with
      | ⟨0, _⟩ => show win0_3.index t (0 : Fin 2) * 512 + 1 * h.val = h.val; omega
      | ⟨1, _⟩ => show win0_3.index t (1 : Fin 2) * 1024 + 1 * k.val = k.val; omega
    rw [e]
    exact Prefix.w2_apply m c h k
  · intro k
    show (V m c main_v14 : S1x1024.Idx → EReal) (((cfg0.win 4).blk t).view.emb (ix2 (0 : Fin 1) k)) = _
    have e : ((cfg0.win 4).blk t).view.emb (ix2 (0 : Fin 1) k) = ix2 (0 : Fin 1) k := by
      funext a; apply Fin.ext
      match a with
      | ⟨0, _⟩ => show win0_4.index t (0 : Fin 2) * 1 + 1 * 0 = 0; omega
      | ⟨1, _⟩ => show win0_4.index t (1 : Fin 2) * 1024 + 1 * k.val = k.val; omega
    rw [e]
    exact Prefix.b2row_apply m c k

/-- An index of the result array is in point `t`'s block iff each coordinate is in the block's range on its axis. -/
theorem mem_blk (t : Fin cfg0.N) (i : S4x256x128x1024.Idx) :
    i ∈ ((cfg0.win 5).blk t).view.set ↔ ∀ a : Fin 4, win0_5.index t a * S1x16x128x1024.size a ≤ (i a).val
      ∧ (i a).val < win0_5.index t a * S1x16x128x1024.size a + S1x16x128x1024.size a := by
  show i ∈ ((View.whole main_v15).slice (win0_5.rect t)).set ↔ _
  rw [View.set_slice_whole, Rect.mem_set_unit]
  exact Iff.rfl

/-- The 64 blocks tile the result array: entry (b, t, s, v) is in the block of point (b, t / 16). -/
theorem cover (i : S4x256x128x1024.Idx) :
    ∃ t : Fin cfg0.N, (cfg0.win 5).flush t = true ∧ i ∈ ((cfg0.win 5).blk t).view.set := by
  have hi0 : (i 0).val < 4 := (i 0).isLt
  have hi1 : (i 1).val < 256 := (i 1).isLt
  have hi2 : (i 2).val < 128 := (i 2).isLt
  have hi3 : (i 3).val < 1024 := (i 3).isLt
  obtain ⟨t, ht⟩ := idx_onto ⟨(i 0).val, hi0⟩ ⟨(i 1).val / 16, by omega⟩
  have q0 : win0_5.index t (0 : Fin 4) = (i 0).val := congrFun ht 0
  have q1 : win0_5.index t (1 : Fin 4) = (i 1).val / 16 := congrFun ht 1
  have q2 : win0_5.index t (2 : Fin 4) = 0 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 128 ≤ (i 2).val ∧ (i 2).val < win0_5.index t (2 : Fin 4) * 128 + 128; omega
  | ⟨3, _⟩ => show win0_5.index t (3 : Fin 4) * 1024 ≤ (i 3).val ∧ (i 3).val < win0_5.index t (3 : Fin 4) * 1024 + 1024; omega

/-- The result array after the run is the specification. -/
theorem final (c : Dev nD) : (dats m 0 c).arrAt 5 cfg0.N = Gm m c :=
  (dats m 0 c).arrAt_eq_of_cover 5 (Gm m c) (fun t _ => flushed_eq m c t) cover

/-- The kernel's run: the result array ends at the specification of the arguments, the arguments unchanged. -/
theorem run : θ_run defs (onTc (τ := τ) (main (F := Ideal))) ⟨m, fun _ => 0, ρ⟩ fun r => ∀ c : Dev nD,
      r.2.mem ((c : Thread nD τ).loc main_v15) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.LibLineResults.lean ====
/-
  Reading a straight line of host operations: three general facts used by every stage lemma of this certificate.

  * The contents after two lines run one after the other are the second line's contents after the first's.
  * An operation over a literal family of FIVE operand references (a concatenation of five arrays) writes its
    function applied to each operand's contents taken at that operand's own reference, so that a reader can go on
    rewriting those contents one operation further back.
  * A tactic that unrolls a literal line at a reference in one simplification pass, the five-operand fact included.
-/
import Idealize.ShloMosaic.Lib.StableHlo.Run

noncomputable section

namespace Idealize.ShloMosaic.StableHlo

open Idealize.ShloMosaic

variable {τ : Topo} {sig : RefSig} {Val : EltTy → Type}

/-- The contents after a concatenated line: the second part's fold over the first part's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {x a b c e y : Ref sig .tc}

/-- A five-operand operation's result, each operand's contents at its own reference. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same, with the result reference kept out of the simplifier's index. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

/-- Unrolls a literal line of host operations at one reference in a single pass: every operation's result at its
    own result reference becomes its function's value, at any other reference what was there before. -/
macro "line_results" : tactic =>
  `(tactic| (simp (disch := decide) only [after_cons, after_nil,
      nullary_result', unary_result', binary_result', ternary_result', quaternary_result', reshape_result', nary5_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefRun.lean ====
/-
  The run of the reference program, read back.

  The program is a straight line of 31 array operations: two inputs broadcast to a common grid and joined along the
  last axis, an affine layer, the rectifier, a second affine layer, and the logarithm of the softmax along the last
  axis. Written as a list of operations, the list splits into those four stages. Each stage is read back from
  ARBITRARY buffer contents as a pure function of the few buffers it reads; the four readings compose to the staged
  value of the result as a function of the six arguments, and no operation writes an argument. Hence every weakly fair
  execution terminates with the result buffer at that value and the arguments unchanged.
-/
import proofs.«140198_j26577257628395_2_alg».proof.Proof.ReadPatched
import proofs.«140198_j26577257628395_2_alg».proof.Proof.LibLineResults
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first affine layer: both inputs broadcast to the common grid and joined along the last axis, contracted
    with the first weight matrix, the first bias added. -/
abbrev l₁ : List (HloOp τ sig (Elt F)) :=
  [ unary main_arg0 main_v0 (broadcastInDim S4x256x1x256 ![0, 1, 3] bcast_S4x256x256_S4x256x1x256_0_1_3 : (⟨S4x256x256, .f32⟩ : BufTy).Contents (Elt F) → (⟨S4x256x1x256, .f32⟩ : BufTy).Contents (Elt F)),
    unary main_v0 main_v1 (broadcastInDim S4x256x128x256 ![0, 1, 2, 3] bcast_S4x256x1x256_S4x256x128x256_0_1_2_3 : (⟨S4x256x1x256, .f32⟩ : BufTy).Contents (Elt F) → (⟨S4x256x128x256, .f32⟩ : BufTy).Contents (Elt F)),
    unary main_arg1 main_v2 (broadcastInDim S4x1x128x256 ![0, 2, 3] bcast_S4x128x256_S4x1x128x256_0_2_3 : (⟨S4x128x256, .f32⟩ : BufTy).Contents (Elt F) → (⟨S4x1x128x256, .f32⟩ : BufTy).Contents (Elt F)),
    unary main_v2 main_v3 (broadcastInDim S4x256x128x256 ![0, 1, 2, 3] bcast_S4x1x128x256_S4x256x128x256_0_1_2_3 : (⟨S4x1x128x256, .f32⟩ : BufTy).Contents (Elt F) → (⟨S4x256x128x256, .f32⟩ : BufTy).Contents (Elt F)),
    binary main_v1 main_v3 main_v4 ((fun a b => concatenate S4x256x128x512 3 [⟨S4x256x128x256, a⟩, ⟨S4x256x128x256, b⟩] concatenates_S4x256x128x256_S4x256x128x256_S4x256x128x512_d3) : (⟨S4x256x128x256, .f32⟩ : BufTy).Contents (Elt F) → (⟨S4x256x128x256, .f32⟩ : BufTy).Contents (Elt F) → (⟨S4x256x128x512, .f32⟩ : BufTy).Contents (Elt F)),
    binary main_v4 main_arg2 main_v5 ((fun l r => Host.dotGeneral dot_S4x256x128x512_S512x512_S4x256x128x512_3_0_012_1_n_n none l r) : (⟨S4x256x128x512, .f32⟩ : BufTy).Contents (Elt F) → (⟨S512x512, .f32⟩ : BufTy).Contents (Elt F) → (⟨S4x256x128x512, .f32⟩ : BufTy).Contents (Elt F)),
    unary main_arg3 main_v6 (broadcastInDim S1x1x1x512 ![3] bcast_S512_S1x1x1x512_3 : (⟨S512, .f32⟩ : BufTy).Contents (Elt F) → (⟨S1x1x1x512, .f32⟩ : BufTy).Contents (Elt F)),
    unary main_v6 main_v7 (broadcastInDim S4x256x128x512 ![0, 1, 2, 3] bcast_S1x1x1x512_S4x256x128x512_0_1_2_3 : (⟨S1x1x1x512, .f32⟩ : BufTy).Contents (Elt F) → (⟨S4x256x128x512, .f32⟩ : BufTy).Contents (Elt F)),
    binary main_v5 main_v7 main_v8 (addf : (⟨S4x256x128x512, .f32⟩ : BufTy).Contents (Elt F) → (⟨S4x256x128x512, .f32⟩ : BufTy).Contents (Elt F) → (⟨S4x256x128x512, .f32⟩ : BufTy).Contents (Elt F)) ]

/-- The rectifier: the maximum with the zero array. -/
abbrev l₂ : List (HloOp τ sig (Elt F)) :=
  [ nullary main_call0_cst (constant S_ .f32 0x00000000#32 : (⟨S_, .f32⟩ : BufTy).Contents (Elt F)),
    unary main_call0_cst main_call0_v0 (broadcastInDim S4x256x128x512 ![] bcast_S_S4x256x128x512 : (⟨S_, .f32⟩ : BufTy).Contents (Elt F) → (⟨S4x256x128x512, .f32⟩ : BufTy).Contents (Elt F)),
    binary main_v8 main_call0_v0 main_v9 (maximumf : (⟨S4x256x128x512, .f32⟩ : BufTy).Contents (Elt F) → (⟨S4x256x128x512, .f32⟩ : BufTy).Contents (Elt F) → (⟨S4x256x128x512, .f32⟩ : BufTy).Contents (Elt F)) ]

/-- The second affine layer: contraction with the second weight matrix, the second bias added. -/
abbrev l₃ : List (HloOp τ sig (Elt F)) :=
  [ binary main_v9 main_arg4 main_v10 ((fun l r => Host.dotGeneral dot_S4x256x128x512_S512x1024_S4x256x128x1024_3_0_012_1_n_n none l r) : (⟨S4x256x128x512, .f32⟩ : BufTy).Contents (Elt F) → (⟨S512x1024, .f32⟩ : BufTy).Contents (Elt F) → (⟨S4x256x128x1024, .f32⟩ : BufTy).Contents (Elt F)),
    unary main_arg5 main_v11 (broadcastInDim S1x1x1x1024 ![3] bcast_S1024_S1x1x1x1024_3 : (⟨S1024, .f32⟩ : BufTy).Contents (Elt F) → (⟨S1x1x1x1024, .f32⟩ : BufTy).Contents (Elt F)),
    unary main_v11 main_v12 (broadcastInDim S4x256x128x1024 ![0, 1, 2, 3] bcast_S1x1x1x1024_S4x256x128x1024_0_1_2_3 : (⟨S1x1x1x1024, .f32⟩ : BufTy).Contents (Elt F) → (⟨S4x256x128x1024, .f32⟩ : BufTy).Contents (Elt F)),
    binary main_v10 main_v12 main_v13 (addf : (⟨S4x256x128x1024, .f32⟩ : BufTy).Contents (Elt F) → (⟨S4x256x128x1024, .f32⟩ : BufTy).Contents (Elt F) → (⟨S4x256x128x1024, .f32⟩ : BufTy).Contents (Elt F)) ]

/-- The logarithm of the softmax along the last axis: the row maximum subtracted, then the logarithm of the row sum
    of exponentials subtracted. -/
abbrev l₄ : List (HloOp τ sig (Elt F)) :=
  [ nullary main_call1_cst (constant S_ .f32 0xFF800000#32 : (⟨S_, .f32⟩ : BufTy).Contents (Elt F)),
    binary main_v13 main_call1_cst main_call1_v0 ((fun x v => Host.reduce FloatOps.maximumf x v reducesTo_S4x256x128x1024_S4x256x128_d3 h_S_) : (⟨S4x256x128x1024, .f32⟩ : BufTy).Contents (Elt F) → (⟨S_, .f32⟩ : BufTy).Contents (Elt F) → (⟨S4x256x128, .f32⟩ : BufTy).Contents (Elt F)),
    nullary main_call1_cst_0 (constant S_ .f32 0xFF800000#32 : (⟨S_, .f32⟩ : BufTy).Contents (Elt F)),
    unary main_call1_cst_0 main_call1_v1 (broadcastInDim S4x256x128 ![] bcast_S_S4x256x128 : (⟨S_, .f32⟩ : BufTy).Contents (Elt F) → (⟨S4x256x128, .f32⟩ : BufTy).Contents (Elt F)),
    binary main_call1_v1 main_call1_v0 main_call1_v2 (maximumf : (⟨S4x256x128, .f32⟩ : BufTy).Contents (Elt F) → (⟨S4x256x128, .f32⟩ : BufTy).Contents (Elt F) → (⟨S4x256x128, .f32⟩ : BufTy).Contents (Elt F)),
    unary main_call1_v2 main_call1_v3 (broadcastInDim S4x256x128x1 ![0, 1, 2] bcast_S4x256x128_S4x256x128x1_0_1_2 : (⟨S4x256x128, .f32⟩ : BufTy).Contents (Elt F) → (⟨S4x256x128x1, .f32⟩ : BufTy).Contents (Elt F)),
    unary main_call1_v3 main_call1_v4 (broadcastInDim S4x256x128x1024 ![0, 1, 2, 3] bcast_S4x256x128x1_S4x256x128x1024_0_1_2_3 : (⟨S4x256x128x1, .f32⟩ : BufTy).Contents (Elt F) → (⟨S4x256x128x1024, .f32⟩ : BufTy).Contents (Elt F)),
    binary main_v13 main_call1_v4 main_call1_v5 (subf : (⟨S4x256x128x1024, .f32⟩ : BufTy).Contents (Elt F) → (⟨S4x256x128x1024, .f32⟩ : BufTy).Contents (Elt F) → (⟨S4x256x128x1024, .f32⟩ : BufTy).Contents (Elt F)),
    unary main_call1_v5 main_call1_v6 (Host.exp : (⟨S4x256x128x1024, .f32⟩ : BufTy).Contents (Elt F) → (⟨S4x256x128x1024, .f32⟩ : BufTy).Contents (Elt F)),
    nullary main_call1_cst_1 (constant S_ .f32 0x00000000#32 : (⟨S_, .f32⟩ : BufTy).Contents (Elt F)),
    binary main_call1_v6 main_call1_cst_1 main_call1_v7 ((fun x v => Host.reduceAdd x v reducesTo_S4x256x128x1024_S4x256x128_d3 h_S_) : (⟨S4x256x128x1024, .f32⟩ : BufTy).Contents (Elt F) → (⟨S_, .f32⟩ : BufTy).Contents (Elt F) → (⟨S4x256x128, .f32⟩ : BufTy).Contents (Elt F)),
    unary main_call1_v7 main_call1_v8 (broadcastInDim S4x256x128x1 ![0, 1, 2] bcast_S4x256x128_S4x256x128x1_0_1_2 : (⟨S4x256x128, .f32⟩ : BufTy).Contents (Elt F) → (⟨S4x256x128x1, .f32⟩ : BufTy).Contents (Elt F)),
    unary main_call1_v8 main_call1_v9 (Host.log : (⟨S4x256x128x1, .f32⟩ : BufTy).Contents (Elt F) → (⟨S4x256x128x1, .f32⟩ : BufTy).Contents (Elt F)),
    unary main_call1_v9 main_call1_v10 (broadcastInDim S4x256x128x1024 ![0, 1, 2, 3] bcast_S4x256x128x1_S4x256x128x1024_0_1_2_3 : (⟨S4x256x128x1, .f32⟩ : BufTy).Contents (Elt F) → (⟨S4x256x128x1024, .f32⟩ : BufTy).Contents (Elt F)),
    binary main_call1_v5 main_call1_v10 main_v14 (subf : (⟨S4x256x128x1024, .f32⟩ : BufTy).Contents (Elt F) → (⟨S4x256x128x1024, .f32⟩ : BufTy).Contents (Elt F) → (⟨S4x256x128x1024, .f32⟩ : BufTy).Contents (Elt F)) ]

/-- The whole program's 31 operations, in order. -/
abbrev ops : List (HloOp τ sig (Elt F)) :=
  [ unary main_arg0 main_v0 (broadcastInDim S4x256x1x256 ![0, 1, 3] bcast_S4x256x256_S4x256x1x256_0_1_3 : (⟨S4x256x256, .f32⟩ : BufTy).Contents (Elt F) → (⟨S4x256x1x256, .f32⟩ : BufTy).Contents (Elt F)),
    unary main_v0 main_v1 (broadcastInDim S4x256x128x256 ![0, 1, 2, 3] bcast_S4x256x1x256_S4x256x128x256_0_1_2_3 : (⟨S4x256x1x256, .f32⟩ : BufTy).Contents (Elt F) → (⟨S4x256x128x256, .f32⟩ : BufTy).Contents (Elt F)),
    unary main_arg1 main_v2 (broadcastInDim S4x1x128x256 ![0, 2, 3] bcast_S4x128x256_S4x1x128x256_0_2_3 : (⟨S4x128x256, .f32⟩ : BufTy).Contents (Elt F) → (⟨S4x1x128x256, .f32⟩ : BufTy).Contents (Elt F)),
    unary main_v2 main_v3 (broadcastInDim S4x256x128x256 ![0, 1, 2, 3] bcast_S4x1x128x256_S4x256x128x256_0_1_2_3 : (⟨S4x1x128x256, .f32⟩ : BufTy).Contents (Elt F) → (⟨S4x256x128x256, .f32⟩ : BufTy).Contents (Elt F)),
    binary main_v1 main_v3 main_v4 ((fun a b => concatenate S4x256x128x512 3 [⟨S4x256x128x256, a⟩, ⟨S4x256x128x256, b⟩] concatenates_S4x256x128x256_S4x256x128x256_S4x256x128x512_d3) : (⟨S4x256x128x256, .f32⟩ : BufTy).Contents (Elt F) → (⟨S4x256x128x256, .f32⟩ : BufTy).Contents (Elt F) → (⟨S4x256x128x512, .f32⟩ : BufTy).Contents (Elt F)),
    binary main_v4 main_arg2 main_v5 ((fun l r => Host.dotGeneral dot_S4x256x128x512_S512x512_S4x256x128x512_3_0_012_1_n_n none l r) : (⟨S4x256x128x512, .f32⟩ : BufTy).Contents (Elt F) → (⟨S512x512, .f32⟩ : BufTy).Contents (Elt F) → (⟨S4x256x128x512, .f32⟩ : BufTy).Contents (Elt F)),
    unary main_arg3 main_v6 (broadcastInDim S1x1x1x512 ![3] bcast_S512_S1x1x1x512_3 : (⟨S512, .f32⟩ : BufTy).Contents (Elt F) → (⟨S1x1x1x512, .f32⟩ : BufTy).Contents (Elt F)),
    unary main_v6 main_v7 (broadcastInDim S4x256x128x512 ![0, 1, 2, 3] bcast_S1x1x1x512_S4x256x128x512_0_1_2_3 : (⟨S1x1x1x512, .f32⟩ : BufTy).Contents (Elt F) → (⟨S4x256x128x512, .f32⟩ : BufTy).Contents (Elt F)),
    binary main_v5 main_v7 main_v8 (addf : (⟨S4x256x128x512, .f32⟩ : BufTy).Contents (Elt F) → (⟨S4x256x128x512, .f32⟩ : BufTy).Contents (Elt F) → (⟨S4x256x128x512, .f32⟩ : BufTy).Contents (Elt F)),
    nullary main_call0_cst (constant S_ .f32 0x00000000#32 : (⟨S_, .f32⟩ : BufTy).Contents (Elt F)),
    unary main_call0_cst main_call0_v0 (broadcastInDim S4x256x128x512 ![] bcast_S_S4x256x128x512 : (⟨S_, .f32⟩ : BufTy).Contents (Elt F) → (⟨S4x256x128x512, .f32⟩ : BufTy).Contents (Elt F)),
    binary main_v8 main_call0_v0 main_v9 (maximumf : (⟨S4x256x128x512, .f32⟩ : BufTy).Contents (Elt F) → (⟨S4x256x128x512, .f32⟩ : BufTy).Contents (Elt F) → (⟨S4x256x128x512, .f32⟩ : BufTy).Contents (Elt F)),
    binary main_v9 main_arg4 main_v10 ((fun l r => Host.dotGeneral dot_S4x256x128x512_S512x1024_S4x256x128x1024_3_0_012_1_n_n none l r) : (⟨S4x256x128x512, .f32⟩ : BufTy).Contents (Elt F) → (⟨S512x1024, .f32⟩ : BufTy).Contents (Elt F) → (⟨S4x256x128x1024, .f32⟩ : BufTy).Contents (Elt F)),
    unary main_arg5 main_v11 (broadcastInDim S1x1x1x1024 ![3] bcast_S1024_S1x1x1x1024_3 : (⟨S1024, .f32⟩ : BufTy).Contents (Elt F) → (⟨S1x1x1x1024, .f32⟩ : BufTy).Contents (Elt F)),
    unary main_v11 main_v12 (broadcastInDim S4x256x128x1024 ![0, 1, 2, 3] bcast_S1x1x1x1024_S4x256x128x1024_0_1_2_3 : (⟨S1x1x1x1024, .f32⟩ : BufTy).Contents (Elt F) → (⟨S4x256x128x1024, .f32⟩ : BufTy).Contents (Elt F)),
    binary main_v10 main_v12 main_v13 (addf : (⟨S4x256x128x1024, .f32⟩ : BufTy).Contents (Elt F) → (⟨S4x256x128x1024, .f32⟩ : BufTy).Contents (Elt F) → (⟨S4x256x128x1024, .f32⟩ : BufTy).Contents (Elt F)),
    nullary main_call1_cst (constant S_ .f32 0xFF800000#32 : (⟨S_, .f32⟩ : BufTy).Contents (Elt F)),
    binary main_v13 main_call1_cst main_call1_v0 ((fun x v => Host.reduce FloatOps.maximumf x v reducesTo_S4x256x128x1024_S4x256x128_d3 h_S_) : (⟨S4x256x128x1024, .f32⟩ : BufTy).Contents (Elt F) → (⟨S_, .f32⟩ : BufTy).Contents (Elt F) → (⟨S4x256x128, .f32⟩ : BufTy).Contents (Elt F)),
    nullary main_call1_cst_0 (constant S_ .f32 0xFF800000#32 : (⟨S_, .f32⟩ : BufTy).Contents (Elt F)),
    unary main_call1_cst_0 main_call1_v1 (broadcastInDim S4x256x128 ![] bcast_S_S4x256x128 : (⟨S_, .f32⟩ : BufTy).Contents (Elt F) → (⟨S4x256x128, .f32⟩ : BufTy).Contents (Elt F)),
    binary main_call1_v1 main_call1_v0 main_call1_v2 (maximumf : (⟨S4x256x128, .f32⟩ : BufTy).Contents (Elt F) → (⟨S4x256x128, .f32⟩ : BufTy).Contents (Elt F) → (⟨S4x256x128, .f32⟩ : BufTy).Contents (Elt F)),
    unary main_call1_v2 main_call1_v3 (broadcastInDim S4x256x128x1 ![0, 1, 2] bcast_S4x256x128_S4x256x128x1_0_1_2 : (⟨S4x256x128, .f32⟩ : BufTy).Contents (Elt F) → (⟨S4x256x128x1, .f32⟩ : BufTy).Contents (Elt F)),
    unary main_call1_v3 main_call1_v4 (broadcastInDim S4x256x128x1024 ![0, 1, 2, 3] bcast_S4x256x128x1_S4x256x128x1024_0_1_2_3 : (⟨S4x256x128x1, .f32⟩ : BufTy).Contents (Elt F) → (⟨S4x256x128x1024, .f32⟩ : BufTy).Contents (Elt F)),
    binary main_v13 main_call1_v4 main_call1_v5 (subf : (⟨S4x256x128x1024, .f32⟩ : BufTy).Contents (Elt F) → (⟨S4x256x128x1024, .f32⟩ : BufTy).Contents (Elt F) → (⟨S4x256x128x1024, .f32⟩ : BufTy).Contents (Elt F)),
    unary main_call1_v5 main_call1_v6 (Host.exp : (⟨S4x256x128x1024, .f32⟩ : BufTy).Contents (Elt F) → (⟨S4x256x128x1024, .f32⟩ : BufTy).Contents (Elt F)),
    nullary main_call1_cst_1 (constant S_ .f32 0x00000000#32 : (⟨S_, .f32⟩ : BufTy).Contents (Elt F)),
    binary main_call1_v6 main_call1_cst_1 main_call1_v7 ((fun x v => Host.reduceAdd x v reducesTo_S4x256x128x1024_S4x256x128_d3 h_S_) : (⟨S4x256x128x1024, .f32⟩ : BufTy).Contents (Elt F) → (⟨S_, .f32⟩ : BufTy).Contents (Elt F) → (⟨S4x256x128, .f32⟩ : BufTy).Contents (Elt F)),
    unary main_call1_v7 main_call1_v8 (broadcastInDim S4x256x128x1 ![0, 1, 2] bcast_S4x256x128_S4x256x128x1_0_1_2 : (⟨S4x256x128, .f32⟩ : BufTy).Contents (Elt F) → (⟨S4x256x128x1, .f32⟩ : BufTy).Contents (Elt F)),
    unary main_call1_v8 main_call1_v9 (Host.log : (⟨S4x256x128x1, .f32⟩ : BufTy).Contents (Elt F) → (⟨S4x256x128x1, .f32⟩ : BufTy).Contents (Elt F)),
    unary main_call1_v9 main_call1_v10 (broadcastInDim S4x256x128x1024 ![0, 1, 2, 3] bcast_S4x256x128x1_S4x256x128x1024_0_1_2_3 : (⟨S4x256x128x1, .f32⟩ : BufTy).Contents (Elt F) → (⟨S4x256x128x1024, .f32⟩ : BufTy).Contents (Elt F)),
    binary main_call1_v5 main_call1_v10 main_v14 (subf : (⟨S4x256x128x1024, .f32⟩ : BufTy).Contents (Elt F) → (⟨S4x256x128x1024, .f32⟩ : BufTy).Contents (Elt F) → (⟨S4x256x128x1024, .f32⟩ : BufTy).Contents (Elt F)) ]

/-- The program's list is the four stages one after the other. -/
theorem ops_split : (ops : List (HloOp τ sig (Elt F))) = l₁ ++ (l₂ ++ (l₃ ++ l₄)) := rfl

-- The maximum along an axis stays folded: every equation below compares its arguments and never looks inside it.
attribute [local irreducible] Host.reduce

/-- The program is the straight line of its operations: each called function's body stands in its call's place. -/
theorem main_eq (c : Dev nD) : main (F := F) c = seq ops := rfl

/-- No buffer and no semaphore of the program is scoped. -/
theorem scopedRefs_eq : (Finset.univ.filter fun b : Ref sig .tc => b.isScoped) = ∅ := by decide
theorem scopedSems_eq : (Finset.univ.filter fun sm : SemLoc sig => sm.isScoped .tc) = ∅ := by decide
/-- Every operation touches buffers of the one processor only. -/
theorem ops_sub : (ops : List (HloOp τ sig (Elt F))).Forall fun op => op.bufs ⊆ tcRefs τ sig :=
  ⟨unary_bufs_sub .., unary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The three later stages as functions of the array they read -/

/-- The rectifier: the pointwise maximum with the zero array. -/
def relu (x : (⟨S4x256x128x512, .f32⟩ : BufTy).Contents (Elt F)) : (⟨S4x256x128x512, .f32⟩ : BufTy).Contents (Elt F) :=
  maximumf x (broadcastInDim S4x256x128x512 ![] bcast_S_S4x256x128x512 (constant S_ .f32 0x00000000#32))

/-- The second affine layer: the contraction of the last axis with the weight matrix, plus the bias along the last axis. -/
def affine₂ (x : (⟨S4x256x128x512, .f32⟩ : BufTy).Contents (Elt F)) (w : (⟨S512x1024, .f32⟩ : BufTy).Contents (Elt F)) (b : (⟨S1024, .f32⟩ : BufTy).Contents (Elt F)) : (⟨S4x256x128x1024, .f32⟩ : BufTy).Contents (Elt F) :=
  addf (Host.dotGeneral dot_S4x256x128x512_S512x1024_S4x256x128x1024_3_0_012_1_n_n none x w)
    (broadcastInDim S4x256x128x1024 ![0, 1, 2, 3] bcast_S1x1x1x1024_S4x256x128x1024_0_1_2_3 (broadcastInDim S1x1x1x1024 ![3] bcast_S1024_S1x1x1x1024_3 b))

/-- An array minus its maximum along the last axis (the maximum taken from minus infinity, and once more with minus infinity). -/
def shifted (x : (⟨S4x256x128x1024, .f32⟩ : BufTy).Contents (Elt F)) : (⟨S4x256x128x1024, .f32⟩ : BufTy).Contents (Elt F) :=
  subf x (broadcastInDim S4x256x128x1024 ![0, 1, 2, 3] bcast_S4x256x128x1_S4x256x128x1024_0_1_2_3
    (broadcastInDim S4x256x128x1 ![0, 1, 2] bcast_S4x256x128_S4x256x128x1_0_1_2
      (maximumf (broadcastInDim S4x256x128 ![] bcast_S_S4x256x128 (constant S_ .f32 0xFF800000#32))
        (Host.reduce FloatOps.maximumf x (constant S_ .f32 0xFF800000#32) reducesTo_S4x256x128x1024_S4x256x128_d3 h_S_))))

/-- The logarithm of the softmax along the last axis: the shifted array minus the logarithm of the sum of its exponentials. -/
def logSoftmax (x : (⟨S4x256x128x1024, .f32⟩ : BufTy).Contents (Elt F)) : (⟨S4x256x128x1024, .f32⟩ : BufTy).Contents (Elt F) :=
  subf (shifted x) (broadcastInDim S4x256x128x1024 ![0, 1, 2, 3] bcast_S4x256x128x1_S4x256x128x1024_0_1_2_3
    (Host.log (broadcastInDim S4x256x128x1 ![0, 1, 2] bcast_S4x256x128_S4x256x128x1_0_1_2
      (Host.reduceAdd (Host.exp (shifted x)) (constant S_ .f32 0x00000000#32) reducesTo_S4x256x128x1024_S4x256x128_d3 h_S_))))

/-! ## Each stage read back, from arbitrary contents -/

set_option maxHeartbeats 400000 in
/-- After the first stage the first layer's output holds the staged value of the four arguments it reads. -/
theorem after_l₁ (W : Valuation τ sig (Elt F)) :
    after l₁ W (Proc.devRef .tc main_v8) = Read.val_main_v8 (F := F) (W (Proc.devRef .tc main_arg0)) (W (Proc.devRef .tc main_arg1)) (W (Proc.devRef .tc main_arg2)) (W (Proc.devRef .tc main_arg3)) := by
  after_results
  all_goals rfl

/-- The first stage writes neither of the last two arguments. -/
theorem after_l₁_arg4 (W : Valuation τ sig (Elt F)) : after l₁ W (Proc.devRef .tc main_arg4) = W (Proc.devRef .tc main_arg4) := by
  after_results
theorem after_l₁_arg5 (W : Valuation τ sig (Elt F)) : after l₁ W (Proc.devRef .tc main_arg5) = W (Proc.devRef .tc main_arg5) := by
  after_results

set_option maxHeartbeats 400000 in
/-- After the rectifier stage its output holds the rectifier of the first layer's output. -/
theorem after_l₂ (W : Valuation τ sig (Elt F)) : after l₂ W (Proc.devRef .tc main_v9) = relu (W (Proc.devRef .tc main_v8)) := by
  after_results
  all_goals rfl
/-- The rectifier stage writes neither of the last two arguments. -/
theorem after_l₂_arg4 (W : Valuation τ sig (Elt F)) : after l₂ W (Proc.devRef .tc main_arg4) = W (Proc.devRef .tc main_arg4) := by
  after_results
theorem after_l₂_arg5 (W : Valuation τ sig (Elt F)) : after l₂ W (Proc.devRef .tc main_arg5) = W (Proc.devRef .tc main_arg5) := by
  after_results

set_option maxHeartbeats 400000 in
/-- After the third stage its output holds the second affine layer of the rectifier's output and the last two arguments. -/
theorem after_l₃ (W : Valuation τ sig (Elt F)) :
    after l₃ W (Proc.devRef .tc main_v13) = affine₂ (W (Proc.devRef .tc main_v9)) (W (Proc.devRef .tc main_arg4)) (W (Proc.devRef .tc main_arg5)) := by
  after_results
  all_goals rfl

set_option maxHeartbeats 400000 in
/-- After the last stage the result holds the logarithm of the softmax of the second layer's output. -/
theorem after_l₄ (W : Valuation τ sig (Elt F)) : after l₄ W (Proc.devRef .tc main_v14) = logSoftmax (W (Proc.devRef .tc main_v13)) := by
  after_results
  all_goals rfl

/-! ## The stages composed -/

set_option maxHeartbeats 400000 in
/-- The staged value of the result is the three later stages applied to the first stage's staged value. -/
theorem val_main_v14_eq (x0 : (⟨S4x256x256, .f32⟩ : BufTy).Contents (Elt F)) (x1 : (⟨S4x128x256, .f32⟩ : BufTy).Contents (Elt F)) (x2 : (⟨S512x512, .f32⟩ : BufTy).Contents (Elt F)) (x3 : (⟨S512, .f32⟩ : BufTy).Contents (Elt F)) (x4 : (⟨S512x1024, .f32⟩ : BufTy).Contents (Elt F)) (x5 : (⟨S1024, .f32⟩ : BufTy).Contents (Elt F)) :
    Read.val_main_v14 (F := F) x0 x1 x2 x3 x4 x5 = logSoftmax (affine₂ (relu (Read.val_main_v8 (F := F) x0 x1 x2 x3)) x4 x5) := rfl

set_option maxHeartbeats 400000 in
/-- After the whole program the result buffer holds the staged value of the six arguments. -/
theorem res_eq (V : Valuation τ sig (Elt F)) :
    after ops V (Proc.devRef .tc main_v14) = Read.val_main_v14 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_split, after_append, after_append, after_append, after_l₄, after_l₃, after_l₂, after_l₂_arg4, after_l₂_arg5,
    after_l₁, after_l₁_arg4, after_l₁_arg5, val_main_v14_eq]

/-- No operation writes an argument: each keeps its contents through the whole program. -/
theorem arg0_eq (V : Valuation τ sig (Elt F)) : after ops V (Proc.devRef .tc main_arg0) = V (Proc.devRef .tc main_arg0) := by
  line_results
theorem arg1_eq (V : Valuation τ sig (Elt F)) : after ops V (Proc.devRef .tc main_arg1) = V (Proc.devRef .tc main_arg1) := by
  line_results
theorem arg2_eq (V : Valuation τ sig (Elt F)) : after ops V (Proc.devRef .tc main_arg2) = V (Proc.devRef .tc main_arg2) := by
  line_results
theorem arg3_eq (V : Valuation τ sig (Elt F)) : after ops V (Proc.devRef .tc main_arg3) = V (Proc.devRef .tc main_arg3) := by
  line_results
theorem arg4_eq (V : Valuation τ sig (Elt F)) : after ops V (Proc.devRef .tc main_arg4) = V (Proc.devRef .tc main_arg4) := by
  line_results
theorem arg5_eq (V : Valuation τ sig (Elt F)) : after ops V (Proc.devRef .tc main_arg5) = V (Proc.devRef .tc main_arg5) := by
  line_results

/-- On every device, for any float values, from any memory with zero counters: every weakly fair execution of the
    program terminates with the result buffer at the staged value of the six arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = Read.val_main_v14 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v14).trans (res_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_seq scopedRefs_eq scopedSems_eq defs main (fun _ => ops) main_eq (fun _ => ops_sub) m ρ)

end Cert.ReferenceIdeal.RefRun

end
-- ==== Proof.RefIsG.lean ====
/-
  The reference program's value is the specification.

  At an index (b, t, s, v) the reference joins, along the last axis, the source encoding src(b, t, ·) (256 entries,
  the same for every s) and the target encoding tgt(b, s, ·) (256 entries, the same for every t) into a row of 512
  entries; contracts that row with W1 and adds b1; takes the maximum with the zero literal; contracts with W2 and adds
  b2; and takes the log-softmax of the row of 1024 logits: each logit less the row's maximum (folded from the
  minus-infinity literal), less the logarithm of the zero literal plus the sum of the exponentials of those differences.
  Against the specification three small laws are used, all valid on the extended reals with no finiteness hypothesis:
    * a sum over 256 + 256 positions is the sum over the first 256 plus the sum over the last 256;
    * the maximum of the minus-infinity literal and y is y;
    * the zero literal plus y is y.
  Everything else reads each operation of the reference at an index.
-/
import proofs.«140198_j26577257628395_2_alg».proof.Proof.ReadPatched
import proofs.«140198_j26577257628395_2_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
open Cert.JointSpec

/-! ## The concatenation read on each half of the joined axis -/

/-- On the first 256 positions of the joined axis the concatenation reads the source encoding at (b, t, ·). -/
theorem v4_left (x0 : (⟨S4x256x256, .f32⟩ : BufTy).Contents (Elt Ideal)) (x1 : (⟨S4x128x256, .f32⟩ : BufTy).Contents (Elt Ideal))
    (b : Fin 4) (t : Fin 256) (s : Fin 128) (k : Fin 512) (f : Fin 256) (hk : k.val = f.val) :
    val_main_v4 (F := Ideal) x0 x1 (ix4 b t s k) = x0 (ix3 b t f) := by
  unfold val_main_v4
  refine (concatenate_pair_apply_left (3 : Fin S4x256x128x512.rank) (val_main_v1 (F := Ideal) x0) (val_main_v3 (F := Ideal) x1)
    concatenates_S4x256x128x256_S4x256x128x256_S4x256x128x512_d3 (ix4 b t s k) rfl (ix4 b t s f)
    (fun c => match c with
      | ⟨0, _⟩ => rfl
      | ⟨1, _⟩ => rfl
      | ⟨2, _⟩ => rfl
      | ⟨3, _⟩ => hk.symm)).trans ?_
  rw [val_main_v1_apply, val_main_v0_apply]
  exact congrArg x0 (funext fun a => Fin.ext (by match a with | ⟨0, _⟩ => rfl | ⟨1, _⟩ => rfl | ⟨2, _⟩ => rfl))

/-- On the last 256 positions of the joined axis the concatenation reads the target encoding at (b, s, ·). -/
theorem v4_right (x0 : (⟨S4x256x256, .f32⟩ : BufTy).Contents (Elt Ideal)) (x1 : (⟨S4x128x256, .f32⟩ : BufTy).Contents (Elt Ideal))
    (b : Fin 4) (t : Fin 256) (s : Fin 128) (k : Fin 512) (f : Fin 256) (hk : k.val = 256 + f.val) :
    val_main_v4 (F := Ideal) x0 x1 (ix4 b t s k) = x1 (ix3 b s f) := by
  unfold val_main_v4
  refine (concatenate_pair_apply_right (3 : Fin S4x256x128x512.rank) (val_main_v1 (F := Ideal) x0) (val_main_v3 (F := Ideal) x1)
    concatenates_S4x256x128x256_S4x256x128x256_S4x256x128x512_d3 (ix4 b t s k) rfl rfl (ix4 b t s f)
    (fun c => match c with
      | ⟨0, _⟩ => fun _ => rfl
      | ⟨1, _⟩ => fun _ => rfl
      | ⟨2, _⟩ => fun _ => rfl
      | ⟨3, _⟩ => fun h => absurd rfl h)
    (by show f.val + 256 = k.val; omega)).trans ?_
  rw [val_main_v3_apply, val_main_v2_apply]
  exact congrArg x1 (funext fun a => Fin.ext (by match a with | ⟨0, _⟩ => rfl | ⟨1, _⟩ => rfl | ⟨2, _⟩ => rfl))

/-! ## The generated index functions at coordinates -/

theorem lidx5_ix (b : Fin 4) (t : Fin 256) (s : Fin 128) (h k : Fin 512) :
    lidx_main_v5 (ix4 b t s h) k = ix4 b t s k :=
  funext fun a => Fin.ext (by match a with | ⟨0, _⟩ => rfl | ⟨1, _⟩ => rfl | ⟨2, _⟩ => rfl | ⟨3, _⟩ => rfl)

theorem ridx5_ix (b : Fin 4) (t : Fin 256) (s : Fin 128) (h k : Fin 512) :
    ridx_main_v5 (ix4 b t s h) k = ix2 k h :=
  funext fun a => Fin.ext (by match a with | ⟨0, _⟩ => rfl | ⟨1, _⟩ => rfl)

theorem idx67_ix (b : Fin 4) (t : Fin 256) (s : Fin 128) (h : Fin 512) :
    idx_main_v6 (idx_main_v7 (ix4 b t s h)) = ix1 h :=
  funext fun a => Fin.ext (by match a with | ⟨0, _⟩ => rfl)

/-! ## The split of the first contraction -/

/-- The contraction over the 512 joined positions is the source half against the upper rows of W1 plus the target
    half against its lower rows: a sum over `Fin (256 + 256)` split at 256, a law of a commutative additive monoid. -/
theorem contraction_split (x0 : (⟨S4x256x256, .f32⟩ : BufTy).Contents (Elt Ideal)) (x1 : (⟨S4x128x256, .f32⟩ : BufTy).Contents (Elt Ideal))
    (x2 : (⟨S512x512, .f32⟩ : BufTy).Contents (Elt Ideal)) (b : Fin 4) (t : Fin 256) (s : Fin 128) (h : Fin 512) :
    (∑ k : Fin 512, val_main_v4 (F := Ideal) x0 x1 (ix4 b t s k) * x2 (ix2 k h))
      = srcPart x0 x2 b t h + tgtPart x1 x2 b s h := by
  unfold srcPart tgtPart
  refine (Fin.sum_univ_add (a := 256) (b := 256)
    (fun k : Fin (256 + 256) => val_main_v4 (F := Ideal) x0 x1 (ix4 b t s k) * x2 (ix2 k h))).trans ?_
  refine congrArg₂ (· + ·) (Finset.sum_congr rfl fun f _ => ?_) (Finset.sum_congr rfl fun f _ => ?_)
  · rw [v4_left x0 x1 b t s (Fin.castAdd 256 f) f rfl]; rfl
  · rw [v4_right x0 x1 b t s (Fin.natAdd 256 f) f rfl]; rfl

/-! ## The hidden activation -/

theorem hid_apply (x0 : (⟨S4x256x256, .f32⟩ : BufTy).Contents (Elt Ideal)) (x1 : (⟨S4x128x256, .f32⟩ : BufTy).Contents (Elt Ideal))
    (x2 : (⟨S512x512, .f32⟩ : BufTy).Contents (Elt Ideal)) (x3 : (⟨S512, .f32⟩ : BufTy).Contents (Elt Ideal))
    (b : Fin 4) (t : Fin 256) (s : Fin 128) (h : Fin 512) :
    val_main_v9 (F := Ideal) x0 x1 x2 x3 (ix4 b t s h) = hidden x0 x1 x2 x3 b t s h := by
  rw [val_main_v9_apply, val_main_v8_apply, val_main_v5_apply, val_main_v7_apply, val_main_v6_apply,
    val_main_call0_v0_apply, val_main_call0_cst_apply]
  simp only [lidx5_ix, ridx5_ix, idx67_ix, Ideal.maximumf_def, Ideal.addf_def, Ideal.ofBits_def]
  rw [contraction_split]
  rfl

/-! ## The logits -/

theorem lidx10_ix (b : Fin 4) (t : Fin 256) (s : Fin 128) (v : Fin 1024) (k : Fin 512) :
    lidx_main_v10 (ix4 b t s v) k = ix4 b t s k :=
  funext fun a => Fin.ext (by match a with | ⟨0, _⟩ => rfl | ⟨1, _⟩ => rfl | ⟨2, _⟩ => rfl | ⟨3, _⟩ => rfl)

theorem ridx10_ix (b : Fin 4) (t : Fin 256) (s : Fin 128) (v : Fin 1024) (k : Fin 512) :
    ridx_main_v10 (ix4 b t s v) k = ix2 k v :=
  funext fun a => Fin.ext (by match a with | ⟨0, _⟩ => rfl | ⟨1, _⟩ => rfl)

theorem idx1112_ix (b : Fin 4) (t : Fin 256) (s : Fin 128) (v : Fin 1024) :
    idx_main_v11 (idx_main_v12 (ix4 b t s v)) = ix1 v :=
  funext fun a => Fin.ext (by match a with | ⟨0, _⟩ => rfl)

theorem logit_apply (x0 : (⟨S4x256x256, .f32⟩ : BufTy).Contents (Elt Ideal)) (x1 : (⟨S4x128x256, .f32⟩ : BufTy).Contents (Elt Ideal))
    (x2 : (⟨S512x512, .f32⟩ : BufTy).Contents (Elt Ideal)) (x3 : (⟨S512, .f32⟩ : BufTy).Contents (Elt Ideal))
    (x4 : (⟨S512x1024, .f32⟩ : BufTy).Contents (Elt Ideal)) (x5 : (⟨S1024, .f32⟩ : BufTy).Contents (Elt Ideal))
    (b : Fin 4) (t : Fin 256) (s : Fin 128) (v : Fin 1024) :
    val_main_v13 (F := Ideal) x0 x1 x2 x3 x4 x5 (ix4 b t s v)
      = logitOf x4 x5 (hidden x0 x1 x2 x3 b t s) v := by
  rw [val_main_v13_apply, val_main_v10_apply, val_main_v12_apply, val_main_v11_apply]
  simp only [lidx10_ix, ridx10_ix, idx1112_ix, Ideal.addf_def, hid_apply]
  rfl

/-! ## The row maximum -/

/-- The maximum with the minus-infinity literal on the left is the other operand. -/
theorem negInf_max (y : EReal) : max (Ideal.ofBits .f32 0xFF800000#32) y = y := by
  simp [Ideal.ofBits, Ideal.ieee]

/-- The reduced index (b, t, s) with position `k` put back on the last axis is (b, t, s, k). -/
theorem lift_ix3 (h : S4x256x128x1024.Reduces [3] S4x256x128) (b : Fin 4) (t : Fin 256) (s : Fin 128)
    (k : Fin (S4x256x128x1024.size 3)) : h.lift (ix3 b t s) k = ix4 b t s (⟨k.val, k.isLt⟩ : Fin 1024) :=
  funext fun c => Fin.ext (by match c with | ⟨0, _⟩ => rfl | ⟨1, _⟩ => rfl | ⟨2, _⟩ => rfl | ⟨3, _⟩ => rfl)

theorem reduces_d3 : S4x256x128x1024.Reduces [3] S4x256x128 := by decide

theorem max_apply (x0 : (⟨S4x256x256, .f32⟩ : BufTy).Contents (Elt Ideal)) (x1 : (⟨S4x128x256, .f32⟩ : BufTy).Contents (Elt Ideal))
    (x2 : (⟨S512x512, .f32⟩ : BufTy).Contents (Elt Ideal)) (x3 : (⟨S512, .f32⟩ : BufTy).Contents (Elt Ideal))
    (x4 : (⟨S512x1024, .f32⟩ : BufTy).Contents (Elt Ideal)) (x5 : (⟨S1024, .f32⟩ : BufTy).Contents (Elt Ideal))
    (b : Fin 4) (t : Fin 256) (s : Fin 128) :
    val_main_call1_v2 (F := Ideal) x0 x1 x2 x3 x4 x5 (ix3 b t s)
      = rowMax (logitOf x4 x5 (hidden x0 x1 x2 x3 b t s)) := by
  rw [val_main_call1_v2_apply, val_main_call1_v1_apply, val_main_call1_cst_0_apply]
  simp only [Ideal.maximumf_def, Ideal.ofBits_def]
  rw [negInf_max]
  unfold val_main_call1_v0
  rw [Host.reduce_eq_fold_single FloatOps.maximumf _ _ reducesTo_S4x256x128x1024_S4x256x128_d3 reduces_d3 h_S_]
  unfold rowMax
  have hf : (val_main_v13 (F := Ideal) x0 x1 x2 x3 x4 x5 ∘ reduces_d3.lift (ix3 b t s))
      = logitOf x4 x5 (hidden x0 x1 x2 x3 b t s) := funext fun k => by
    show val_main_v13 (F := Ideal) x0 x1 x2 x3 x4 x5 (reduces_d3.lift (ix3 b t s) k) = _
    rw [lift_ix3, logit_apply]
    rfl
  rw [hf]
  rfl

/-! ## The shifted logits, the sum of their exponentials, and the result -/

theorem idx34_ix (b : Fin 4) (t : Fin 256) (s : Fin 128) (v : Fin 1024) :
    idx_main_call1_v3 (idx_main_call1_v4 (ix4 b t s v)) = ix3 b t s :=
  funext fun a => Fin.ext (by match a with | ⟨0, _⟩ => rfl | ⟨1, _⟩ => rfl | ⟨2, _⟩ => rfl)

theorem idx810_ix (b : Fin 4) (t : Fin 256) (s : Fin 128) (v : Fin 1024) :
    idx_main_call1_v8 (idx_main_call1_v10 (ix4 b t s v)) = ix3 b t s :=
  funext fun a => Fin.ext (by match a with | ⟨0, _⟩ => rfl | ⟨1, _⟩ => rfl | ⟨2, _⟩ => rfl)

theorem idx7_ix (b : Fin 4) (t : Fin 256) (s : Fin 128) (k : Fin 1024) :
    idx_main_call1_v7 (ix3 b t s) k = ix4 b t s k :=
  funext fun a => Fin.ext (by match a with | ⟨0, _⟩ => rfl | ⟨1, _⟩ => rfl | ⟨2, _⟩ => rfl | ⟨3, _⟩ => rfl)

theorem shifted_apply (x0 : (⟨S4x256x256, .f32⟩ : BufTy).Contents (Elt Ideal)) (x1 : (⟨S4x128x256, .f32⟩ : BufTy).Contents (Elt Ideal))
    (x2 : (⟨S512x512, .f32⟩ : BufTy).Contents (Elt Ideal)) (x3 : (⟨S512, .f32⟩ : BufTy).Contents (Elt Ideal))
    (x4 : (⟨S512x1024, .f32⟩ : BufTy).Contents (Elt Ideal)) (x5 : (⟨S1024, .f32⟩ : BufTy).Contents (Elt Ideal))
    (b : Fin 4) (t : Fin 256) (s : Fin 128) (v : Fin 1024) :
    val_main_call1_v5 (F := Ideal) x0 x1 x2 x3 x4 x5 (ix4 b t s v)
      = logitOf x4 x5 (hidden x0 x1 x2 x3 b t s) v - rowMax (logitOf x4 x5 (hidden x0 x1 x2 x3 b t s)) := by
  rw [val_main_call1_v5_apply, val_main_call1_v4_apply, val_main_call1_v3_apply, idx34_ix, max_apply, logit_apply]
  rfl

theorem sum_apply (x0 : (⟨S4x256x256, .f32⟩ : BufTy).Contents (Elt Ideal)) (x1 : (⟨S4x128x256, .f32⟩ : BufTy).Contents (Elt Ideal))
    (x2 : (⟨S512x512, .f32⟩ : BufTy).Contents (Elt Ideal)) (x3 : (⟨S512, .f32⟩ : BufTy).Contents (Elt Ideal))
    (x4 : (⟨S512x1024, .f32⟩ : BufTy).Contents (Elt Ideal)) (x5 : (⟨S1024, .f32⟩ : BufTy).Contents (Elt Ideal))
    (b : Fin 4) (t : Fin 256) (s : Fin 128) :
    val_main_call1_v7 (F := Ideal) x0 x1 x2 x3 x4 x5 (ix3 b t s)
      = ∑ k : Fin 1024, Ideal.exp (logitOf x4 x5 (hidden x0 x1 x2 x3 b t s) k
          - rowMax (logitOf x4 x5 (hidden x0 x1 x2 x3 b t s))) := by
  rw [val_main_call1_v7_apply, val_main_call1_cst_1_apply]
  simp only [Ideal.ofBits_def, Ideal.ofBits_zero_f32, zero_add, idx7_ix, val_main_call1_v6_apply, shifted_apply,
    Ideal.hostUnary_exp_def]

/-- THE REFERENCE'S VALUE IS THE SPECIFICATION. -/
theorem val_eq_G (x0 : (⟨S4x256x256, .f32⟩ : BufTy).Contents (Elt Ideal)) (x1 : (⟨S4x128x256, .f32⟩ : BufTy).Contents (Elt Ideal))
    (x2 : (⟨S512x512, .f32⟩ : BufTy).Contents (Elt Ideal)) (x3 : (⟨S512, .f32⟩ : BufTy).Contents (Elt Ideal))
    (x4 : (⟨S512x1024, .f32⟩ : BufTy).Contents (Elt Ideal)) (x5 : (⟨S1024, .f32⟩ : BufTy).Contents (Elt Ideal)) :
    Cert.ReferenceIdeal.Read.val_main_v14 (F := Ideal) x0 x1 x2 x3 x4 x5 = Cert.JointSpec.G x0 x1 x2 x3 x4 x5 := by
  funext i
  obtain ⟨b, t, s, v, rfl⟩ : ∃ (b : Fin 4) (t : Fin 256) (s : Fin 128) (v : Fin 1024), i = ix4 b t s v :=
    ⟨i 0, i 1, i 2, i 3, eq_ix4 i⟩
  rw [Cert.JointSpec.G_ix4, val_main_v14_apply, val_main_call1_v10_apply, val_main_call1_v9_apply,
    val_main_call1_v8_apply, idx810_ix, sum_apply, shifted_apply]
  rfl

end Cert.ReferenceIdeal.RefValue

end
-- ==== Proof.lean ====
/-
  The certificate of the joint-network kernel against its reference: source and target encodings are projected by the two
  halves of W1, summed pairwise with b1, rectified, multiplied by W2, biased by b2, and sent through a log-softmax over the
  vocabulary axis.

  The kernel projects the source and target encodings ONCE on the host (source against rows 0 … 255 of W1, target against rows
  256 … 511) and, per grid point, forms the pairwise sums, the rectification, the product with W2 and the log-softmax on a
  [16, 128, 1024] block. The reference concatenates the broadcast encodings along the feature axis and contracts the 512
  joined features with W1 in one product. On the extended reals the two agree entry by entry because a sum over 256 + 256
  positions is the sum over the first 256 plus the sum over the last 256; every other step is the same operation on the same
  values (a change of float format is the identity there), so no finiteness of the arguments is used.

  The pieces: `Cert.JointSpec.G` states the common value; `Cert.KernelIdeal.Blocks.run` is the kernel's run ending with the
  result array at `G` of the arguments; `Cert.ReferenceIdeal.RefRun.run` is the reference's run, and
  `Cert.ReferenceIdeal.RefValue.val_eq_G` says its result is `G` of the arguments. The word-level kernel needs only its frame;
  the idealization rewrote no operation, so there is nothing to preserve beyond the program's own text.
-/
import proofs.«140198_j26577257628395_2_alg».proof.Defs
import proofs.«140198_j26577257628395_2_alg».proof.Proof.Gen.Kernel
import proofs.«140198_j26577257628395_2_alg».proof.Proof.Gen.Kernel.Skeleton
import proofs.«140198_j26577257628395_2_alg».proof.Proof.Gen.Kernel.Launch
import proofs.«140198_j26577257628395_2_alg».proof.Proof.Gen.Kernel.Points
import proofs.«140198_j26577257628395_2_alg».proof.Proof.Gen.Kernel.Frame
import proofs.«140198_j26577257628395_2_alg».proof.Proof.Gen.KernelIdeal
import proofs.«140198_j26577257628395_2_alg».proof.Proof.Gen.KernelIdeal.Skeleton
import proofs.«140198_j26577257628395_2_alg».proof.Proof.Gen.KernelIdeal.Launch
import proofs.«140198_j26577257628395_2_alg».proof.Proof.Gen.KernelIdeal.Points
import proofs.«140198_j26577257628395_2_alg».proof.Proof.Gen.KernelIdeal.Frame
import proofs.«140198_j26577257628395_2_alg».proof.Proof.Gen.ReferenceIdeal
import proofs.«140198_j26577257628395_2_alg».proof.Proof.Gen.Pre_finite_inputs
import proofs.«140198_j26577257628395_2_alg».proof.Proof.Gen.KernelIdeal.Value
import proofs.«140198_j26577257628395_2_alg».proof.Proof.Blocks
import proofs.«140198_j26577257628395_2_alg».proof.Proof.RefRun
import proofs.«140198_j26577257628395_2_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From memories agreeing on the six arguments both programs end with the result array at the common value of the
    arguments, entry by entry. -/
theorem algebraic : Cert.algebraic_KernelIdeal_ReferenceIdeal := by
  intro m ρ m' ρ' _ hagree
  refine ⟨fun c => Cert.KernelIdeal.Blocks.Gm m c, Cert.KernelIdeal.Blocks.run m ρ, ?_⟩
  refine (θ_run Cert.ReferenceIdeal.defs _ _).mono (fun _ h c => ⟨(h c).1.trans ?_, (h c).2⟩)
    (Cert.ReferenceIdeal.RefRun.run m' ρ')
  rw [Cert.ReferenceIdeal.RefValue.val_eq_G, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
